-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S2x524288 : Shape := ⟨2, ![2, 524288]⟩
abbrev S128x128 : Shape := ⟨2, ![128, 128]⟩
abbrev S128 : Shape := ⟨1, ![128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S16384x128 .f32) (main_arg1 : IVec S2x524288 32) (main_arg2 : FVec F S128x128 .f32) (main_arg3 : FVec F S128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S16384x128 : Shape := ⟨2, ![16384, 128]⟩
abbrev S2x524288 : Shape := ⟨2, ![2, 524288]⟩
abbrev S128x128 : Shape := ⟨2, ![128, 128]⟩
abbrev S128 : Shape := ⟨1, ![128]⟩
abbrev S2048x128 : Shape := ⟨2, ![2048, 128]⟩
abbrev S16384 : Shape := ⟨1, ![16384]⟩
abbrev S1x524288 : Shape := ⟨2, ![1, 524288]⟩
abbrev S524288 : Shape := ⟨1, ![524288]⟩
abbrev S540672 : Shape := ⟨1, ![540672]⟩
abbrev S_ : Shape := ⟨0, ![]⟩
abbrev S540672x1 : Shape := ⟨2, ![540672, 1]⟩
abbrev S540672x128 : Shape := ⟨2, ![540672, 128]⟩
abbrev S1x128 : Shape := ⟨2, ![1, 128]⟩
abbrev S16384x16384 : Shape := ⟨2, ![16384, 16384]⟩
abbrev S1024x128 : Shape := ⟨2, ![1024, 128]⟩
abbrev S2048x1024 : Shape := ⟨2, ![2048, 1024]⟩

abbrev nBuf : Space → Nat
  | .hbm => 70
  | .vmem => 11
  | .smem => 0
  | _ => 0

abbrev bufTy : (tb : Table) → Fin (tcTables nBuf tb) → BufTy
  | .hbm, ⟨0, _⟩ => ⟨S16384x128, .f32⟩
  | .hbm, ⟨1, _⟩ => ⟨S2x524288, .i32⟩
  | .hbm, ⟨2, _⟩ => ⟨S128x128, .f32⟩
  | .hbm, ⟨3, _⟩ => ⟨S128, .f32⟩
  | .hbm, ⟨4, _⟩ => ⟨S16384x128, .bf16⟩
  | .hbm, ⟨5, _⟩ => ⟨S128x128, .bf16⟩
  | .hbm, ⟨6, _⟩ => ⟨S16384x128, .f32⟩
  | .hbm, ⟨7, _⟩ => ⟨S16384, .i32⟩
  | .hbm, ⟨8, _⟩ => ⟨S1x524288, .i32⟩
  | .hbm, ⟨9, _⟩ => ⟨S524288, .i32⟩
  | .hbm, ⟨10, _⟩ => ⟨S540672, .i32⟩
  | .hbm, ⟨11, _⟩ => ⟨S1x524288, .i32⟩
  | .hbm, ⟨12, _⟩ => ⟨S524288, .i32⟩
  | .hbm, ⟨13, _⟩ => ⟨S540672, .i32⟩
  | .hbm, ⟨14, _⟩ => ⟨S_, .f32⟩
  | .hbm, ⟨15, _⟩ => ⟨S540672, .f32⟩
  | .hbm, ⟨16, _⟩ => ⟨S_, .f32⟩
  | .hbm, ⟨17, _⟩ => ⟨S16384, .f32⟩
  | .hbm, ⟨18, _⟩ => ⟨S540672x1, .i32⟩
  | .hbm, ⟨19, _⟩ => ⟨S16384, .f32⟩
  | .hbm, ⟨20, _⟩ => ⟨S_, .f32⟩
  | .hbm, ⟨21, _⟩ => ⟨S16384, .f32⟩
  | .hbm, ⟨22, _⟩ => ⟨S16384, .i1⟩
  | .hbm, ⟨23, _⟩ => ⟨S16384, .f32⟩
  | .hbm, ⟨24, _⟩ => ⟨S_, .f32⟩
  | .hbm, ⟨25, _⟩ => ⟨S16384, .f32⟩
  | .hbm, ⟨26, _⟩ => ⟨S16384, .f32⟩
  | .hbm, ⟨27, _⟩ => ⟨S_, .i32⟩
  | .hbm, ⟨28, _⟩ => ⟨S540672, .i32⟩
  | .hbm, ⟨29, _⟩ => ⟨S540672, .i1⟩
  | .hbm, ⟨30, _⟩ => ⟨S_, .i32⟩
  | .hbm, ⟨31, _⟩ => ⟨S540672, .i32⟩
  | .hbm, ⟨32, _⟩ => ⟨S540672, .i32⟩
  | .hbm, ⟨33, _⟩ => ⟨S540672, .i32⟩
  | .hbm, ⟨34, _⟩ => ⟨S540672x1, .i32⟩
  | .hbm, ⟨35, _⟩ => ⟨S540672, .f32⟩
  | .hbm, ⟨36, _⟩ => ⟨S_, .i32⟩
  | .hbm, ⟨37, _⟩ => ⟨S540672, .i32⟩
  | .hbm, ⟨38, _⟩ => ⟨S540672, .i1⟩
  | .hbm, ⟨39, _⟩ => ⟨S_, .i32⟩
  | .hbm, ⟨40, _⟩ => ⟨S540672, .i32⟩
  | .hbm, ⟨41, _⟩ => ⟨S540672, .i32⟩
  | .hbm, ⟨42, _⟩ => ⟨S540672, .i32⟩
  | .hbm, ⟨43, _⟩ => ⟨S540672x1, .i32⟩
  | .hbm, ⟨44, _⟩ => ⟨S540672, .f32⟩
  | .hbm, ⟨45, _⟩ => ⟨S540672, .f32⟩
  | .hbm, ⟨46, _⟩ => ⟨S540672x1, .f32⟩
  | .hbm, ⟨47, _⟩ => ⟨S_, .i32⟩
  | .hbm, ⟨48, _⟩ => ⟨S540672, .i32⟩
  | .hbm, ⟨49, _⟩ => ⟨S540672, .i1⟩
  | .hbm, ⟨50, _⟩ => ⟨S_, .i32⟩
  | .hbm, ⟨51, _⟩ => ⟨S540672, .i32⟩
  | .hbm, ⟨52, _⟩ => ⟨S540672, .i32⟩
  | .hbm, ⟨53, _⟩ => ⟨S540672, .i32⟩
  | .hbm, ⟨54, _⟩ => ⟨S540672x1, .i32⟩
  | .hbm, ⟨55, _⟩ => ⟨S540672x128, .f32⟩
  | .hbm, ⟨56, _⟩ => ⟨S540672x128, .f32⟩
  | .hbm, ⟨57, _⟩ => ⟨S540672x128, .f32⟩
  | .hbm, ⟨58, _⟩ => ⟨S_, .f32⟩
  | .hbm, ⟨59, _⟩ => ⟨S16384x128, .f32⟩
  | .hbm, ⟨60, _⟩ => ⟨S540672x1, .i32⟩
  | .hbm, ⟨61, _⟩ => ⟨S16384x128, .f32⟩
  | .hbm, ⟨62, _⟩ => ⟨S1x128, .f32⟩
  | .hbm, ⟨63, _⟩ => ⟨S16384x128, .f32⟩
  | .hbm, ⟨64, _⟩ => ⟨S16384x128, .f32⟩
  | .hbm, ⟨65, _⟩ => ⟨S_, .f32⟩
  | .hbm, ⟨66, _⟩ => ⟨S16384x128, .f32⟩
  | .hbm, ⟨67, _⟩ => ⟨S16384x128, .f32⟩
  | .hbm, ⟨68, _⟩ => ⟨S16384x128, .bf16⟩
  | .hbm, ⟨69, _⟩ => ⟨S16384x16384, .f32⟩
  | .local _ .vmem, ⟨0, _⟩ => ⟨S2048x128, .bf16⟩
  | .local _ .vmem, ⟨1, _⟩ => ⟨S2048x128, .bf16⟩
  | .local _ .vmem, ⟨2, _⟩ => ⟨S128x128, .bf16⟩
  | .local _ .vmem, ⟨3, _⟩ => ⟨S2048x128, .f32⟩
  | .local _ .vmem, ⟨4, _⟩ => ⟨S2048x128, .f32⟩
  | .local _ .vmem, ⟨5, _⟩ => ⟨S2048x128, .bf16⟩
  | .local _ .vmem, ⟨6, _⟩ => ⟨S2048x128, .bf16⟩
  | .local _ .vmem, ⟨7, _⟩ => ⟨S1024x128, .bf16⟩
  | .local _ .vmem, ⟨8, _⟩ => ⟨S1024x128, .bf16⟩
  | .local _ .vmem, ⟨9, _⟩ => ⟨S2048x1024, .f32⟩
  | .local _ .vmem, ⟨10, _⟩ => ⟨S2048x1024, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_c : Ref sig .tc := ⟨.hbm, 27, rfl⟩
abbrev main_v19 : Ref sig .tc := ⟨.hbm, 28, rfl⟩
abbrev main_v20 : Ref sig .tc := ⟨.hbm, 29, rfl⟩
abbrev main_c_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_4 : Ref sig .tc := ⟨.hbm, 36, rfl⟩
abbrev main_v26 : Ref sig .tc := ⟨.hbm, 37, rfl⟩
abbrev main_v27 : Ref sig .tc := ⟨.hbm, 38, rfl⟩
abbrev main_c_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c_6 : Ref sig .tc := ⟨.hbm, 47, rfl⟩
abbrev main_v35 : Ref sig .tc := ⟨.hbm, 48, rfl⟩
abbrev main_v36 : Ref sig .tc := ⟨.hbm, 49, rfl⟩
abbrev main_c_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_8 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_call1_cst : Ref sig .tc := ⟨.hbm, 65, rfl⟩
abbrev main_call1_v0 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S2048x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S2x524288_S1x524288_0_0 : S2x524288.Slices ![0, 0] S1x524288
  shapeCasts_S1x524288_S524288 : S1x524288.ShapeCasts S524288
  concatenates_S524288_S16384_S540672_d0 : Shape.Concatenates [S524288, S16384] S540672 0
  slices_S2x524288_S1x524288_1_0 : S2x524288.Slices ![1, 0] S1x524288
  bcast_S_S540672 : S_.BroadcastsInDim S540672 (![] : Fin 0 → Fin S540672.rank)
  bcast_S_S16384 : S_.BroadcastsInDim S16384 (![] : Fin 0 → Fin S16384.rank)
  bcast_S540672_S540672x1_0 : S540672.BroadcastsInDim S540672x1 (![0] : Fin 1 → Fin S540672x1.rank)
  bcast_S540672x1_S540672x128_0_1 : S540672x1.BroadcastsInDim S540672x128 (![0, 1] : Fin 2 → Fin S540672x128.rank)
  bcast_S_S16384x128 : S_.BroadcastsInDim S16384x128 (![] : Fin 0 → Fin S16384x128.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S2048x1024_S2048x1024_0_0 : ∀ a, (![0, 0] : Fin 2 → Nat) a + S2048x1024.size a ≤ S2048x1024.size a
  h_S2048x1024 : 0 < S2048x1024.numel
  dot_S2048x128_S128x128_S2048x128_1_0_0_1_n_n_wf : DotDims.WF S2048x128 S128x128 S2048x128 [1] [0] [0] [1] [] []
  scatter_S16384_S540672x1_S540672_n_0_0_1_wf : ScatterDims.WF S16384 S540672x1 S540672 [] [0] [0] 1
  gather_S16384_S540672x1_S540672_n_0_n_n_0_1_1_wf : GatherDims.WF S16384 S540672x1 S540672 [] [0] [] [0] [] 1 ![1]
  gather_S16384x128_S540672x1_S540672x128_1_0_n_n_0_1_1128_wf : GatherDims.WF S16384x128 S540672x1 S540672x128 [1] [0] [] [0] [] 1 ![1, 128]
  scatter_S16384x128_S540672x1_S540672x128_1_0_0_1_wf : ScatterDims.WF S16384x128 S540672x1 S540672x128 [1] [0] [0] 1
  dot_S2048x128_S1024x128_S2048x1024_1_1_0_0_n_n_wf : DotDims.WF S2048x128 S1024x128 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S16384x128.size a
  hwx0_0 : ∀ i : grid0.Coords, EltTy.bits .bf16 = 32 ∨ (Rect.block (s := S16384x128) S2048x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S16384x128.size a
  hwx0_2 : ∀ i : grid0.Coords, EltTy.bits .f32 = 32 ∨ (Rect.block (s := S16384x128) S2048x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S16384x128.size a
  hwx1_0 : ∀ i : grid1.Coords, EltTy.bits .bf16 = 32 ∨ (Rect.block (s := S16384x128) S2048x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S16384x128.size a
  hwx1_1 : ∀ i : grid1.Coords, EltTy.bits .bf16 = 32 ∨ (Rect.block (s := S16384x128) S1024x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1024.size a ≤ S16384x16384.size a
  hwx1_2 : ∀ i : grid1.Coords, EltTy.bits .f32 = 32 ∨ (Rect.block (s := S16384x16384) S2048x1024.size (cc1_transform_2 i) (hinb1_2 i)).WholeWords (EltTy.packing .f32)

variable [Facts₀]

def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def scatter_S16384_S540672x1_S540672_n_0_0_1 : ScatterDims S16384 S540672x1 S540672 where
  updateWindowDims := []
  insertedWindowDims := [0]
  scatterDimsToOperandDims := [0]
  indexVectorDim := 1
  wf := scatter_S16384_S540672x1_S540672_n_0_0_1_wf
def gather_S16384_S540672x1_S540672_n_0_n_n_0_1_1 : GatherDims S16384 S540672x1 S540672 where
  offsetDims := []
  collapsedSliceDims := [0]
  operandBatchingDims := []
  startIndicesBatchingDims := []
  startIndexMap := [0]
  indexVectorDim := 1
  sliceSizes := ![1]
  wf := gather_S16384_S540672x1_S540672_n_0_n_n_0_1_1_wf
def gather_S16384x128_S540672x1_S540672x128_1_0_n_n_0_1_1128 : GatherDims S16384x128 S540672x1 S540672x128 where
  offsetDims := [1]
  collapsedSliceDims := [0]
  operandBatchingDims := []
  startIndicesBatchingDims := []
  startIndexMap := [0]
  indexVectorDim := 1
  sliceSizes := ![1, 128]
  wf := gather_S16384x128_S540672x1_S540672x128_1_0_n_n_0_1_1128_wf
def scatter_S16384x128_S540672x1_S540672x128_1_0_0_1 : ScatterDims S16384x128 S540672x1 S540672x128 where
  updateWindowDims := [1]
  insertedWindowDims := [0]
  scatterDimsToOperandDims := [0]
  indexVectorDim := 1
  wf := scatter_S16384x128_S540672x1_S540672x128_1_0_0_1_wf
def dot_S2048x128_S1024x128_S2048x1024_1_1_0_0_n_n : DotDims S2048x128 S1024x128 S2048x1024 where
  lhsContracting := [1]
  rhsContracting := [1]
  lhsNonContracting := [0]
  rhsNonContracting := [0]
  lhsBatch := []
  rhsBatch := []
  wf := dot_S2048x128_S1024x128_S2048x1024_1_1_0_0_n_n_wf

abbrev win0_0 : Pipeline.Window sig grid0 :=
  Pipeline.Window.ofSpec (Memref.whole main_v0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v51) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v52) S2048x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16384x128 : Shape := ⟨2, ![16384, 128]⟩
abbrev S2x524288 : Shape := ⟨2, ![2, 524288]⟩
abbrev S128x128 : Shape := ⟨2, ![128, 128]⟩
abbrev S128 : Shape := ⟨1, ![128]⟩
abbrev S16384 : Shape := ⟨1, ![16384]⟩
abbrev S1x524288 : Shape := ⟨2, ![1, 524288]⟩
abbrev S524288 : Shape := ⟨1, ![524288]⟩
abbrev S540672 : Shape := ⟨1, ![540672]⟩
abbrev S_ : Shape := ⟨0, ![]⟩
abbrev S540672x1 : Shape := ⟨2, ![540672, 1]⟩
abbrev S540672x128 : Shape := ⟨2, ![540672, 128]⟩
abbrev S1x128 : Shape := ⟨2, ![1, 128]⟩
abbrev S128x16384 : Shape := ⟨2, ![128, 16384]⟩
abbrev S16384x16384 : Shape := ⟨2, ![16384, 16384]⟩

abbrev nBuf : Space → Nat
  | .hbm => 68
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S2x524288, .i32⟩
  | .hbm, ⟨2, _⟩ => ⟨S128x128, .f32⟩
  | .hbm, ⟨3, _⟩ => ⟨S128, .f32⟩
  | .hbm, ⟨4, _⟩ => ⟨S16384x128, .f32⟩
  | .hbm, ⟨5, _⟩ => ⟨S16384, .i32⟩
  | .hbm, ⟨6, _⟩ => ⟨S1x524288, .i32⟩
  | .hbm, ⟨7, _⟩ => ⟨S524288, .i32⟩
  | .hbm, ⟨8, _⟩ => ⟨S540672, .i32⟩
  | .hbm, ⟨9, _⟩ => ⟨S1x524288, .i32⟩
  | .hbm, ⟨10, _⟩ => ⟨S524288, .i32⟩
  | .hbm, ⟨11, _⟩ => ⟨S540672, .i32⟩
  | .hbm, ⟨12, _⟩ => ⟨S_, .f32⟩
  | .hbm, ⟨13, _⟩ => ⟨S540672, .f32⟩
  | .hbm, ⟨14, _⟩ => ⟨S_, .f32⟩
  | .hbm, ⟨15, _⟩ => ⟨S16384, .f32⟩
  | .hbm, ⟨16, _⟩ => ⟨S540672x1, .i32⟩
  | .hbm, ⟨17, _⟩ => ⟨S16384, .f32⟩
  | .hbm, ⟨18, _⟩ => ⟨S_, .f32⟩
  | .hbm, ⟨19, _⟩ => ⟨S16384, .f32⟩
  | .hbm, ⟨20, _⟩ => ⟨S16384, .i1⟩
  | .hbm, ⟨21, _⟩ => ⟨S16384, .f32⟩
  | .hbm, ⟨22, _⟩ => ⟨S_, .f32⟩
  | .hbm, ⟨23, _⟩ => ⟨S16384, .f32⟩
  | .hbm, ⟨24, _⟩ => ⟨S16384, .f32⟩
  | .hbm, ⟨25, _⟩ => ⟨S_, .i32⟩
  | .hbm, ⟨26, _⟩ => ⟨S540672, .i32⟩
  | .hbm, ⟨27, _⟩ => ⟨S540672, .i1⟩
  | .hbm, ⟨28, _⟩ => ⟨S_, .i32⟩
  | .hbm, ⟨29, _⟩ => ⟨S540672, .i32⟩
  | .hbm, ⟨30, _⟩ => ⟨S540672, .i32⟩
  | .hbm, ⟨31, _⟩ => ⟨S540672, .i32⟩
  | .hbm, ⟨32, _⟩ => ⟨S540672x1, .i32⟩
  | .hbm, ⟨33, _⟩ => ⟨S540672, .f32⟩
  | .hbm, ⟨34, _⟩ => ⟨S_, .i32⟩
  | .hbm, ⟨35, _⟩ => ⟨S540672, .i32⟩
  | .hbm, ⟨36, _⟩ => ⟨S540672, .i1⟩
  | .hbm, ⟨37, _⟩ => ⟨S_, .i32⟩
  | .hbm, ⟨38, _⟩ => ⟨S540672, .i32⟩
  | .hbm, ⟨39, _⟩ => ⟨S540672, .i32⟩
  | .hbm, ⟨40, _⟩ => ⟨S540672, .i32⟩
  | .hbm, ⟨41, _⟩ => ⟨S540672x1, .i32⟩
  | .hbm, ⟨42, _⟩ => ⟨S540672, .f32⟩
  | .hbm, ⟨43, _⟩ => ⟨S540672, .f32⟩
  | .hbm, ⟨44, _⟩ => ⟨S540672x1, .f32⟩
  | .hbm, ⟨45, _⟩ => ⟨S_, .i32⟩
  | .hbm, ⟨46, _⟩ => ⟨S540672, .i32⟩
  | .hbm, ⟨47, _⟩ => ⟨S540672, .i1⟩
  | .hbm, ⟨48, _⟩ => ⟨S_, .i32⟩
  | .hbm, ⟨49, _⟩ => ⟨S540672, .i32⟩
  | .hbm, ⟨50, _⟩ => ⟨S540672, .i32⟩
  | .hbm, ⟨51, _⟩ => ⟨S540672, .i32⟩
  | .hbm, ⟨52, _⟩ => ⟨S540672x1, .i32⟩
  | .hbm, ⟨53, _⟩ => ⟨S540672x128, .f32⟩
  | .hbm, ⟨54, _⟩ => ⟨S540672x128, .f32⟩
  | .hbm, ⟨55, _⟩ => ⟨S540672x128, .f32⟩
  | .hbm, ⟨56, _⟩ => ⟨S_, .f32⟩
  | .hbm, ⟨57, _⟩ => ⟨S16384x128, .f32⟩
  | .hbm, ⟨58, _⟩ => ⟨S540672x1, .i32⟩
  | .hbm, ⟨59, _⟩ => ⟨S16384x128, .f32⟩
  | .hbm, ⟨60, _⟩ => ⟨S1x128, .f32⟩
  | .hbm, ⟨61, _⟩ => ⟨S16384x128, .f32⟩
  | .hbm, ⟨62, _⟩ => ⟨S16384x128, .f32⟩
  | .hbm, ⟨63, _⟩ => ⟨S_, .f32⟩
  | .hbm, ⟨64, _⟩ => ⟨S16384x128, .f32⟩
  | .hbm, ⟨65, _⟩ => ⟨S16384x128, .f32⟩
  | .hbm, ⟨66, _⟩ => ⟨S128x16384, .f32⟩
  | .hbm, ⟨67, _⟩ => ⟨S16384x16384, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_c : Ref sig .tc := ⟨.hbm, 25, rfl⟩
abbrev main_v17 : Ref sig .tc := ⟨.hbm, 26, rfl⟩
abbrev main_v18 : Ref sig .tc := ⟨.hbm, 27, rfl⟩
abbrev main_c_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_4 : Ref sig .tc := ⟨.hbm, 34, rfl⟩
abbrev main_v24 : Ref sig .tc := ⟨.hbm, 35, rfl⟩
abbrev main_v25 : Ref sig .tc := ⟨.hbm, 36, rfl⟩
abbrev main_c_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_6 : Ref sig .tc := ⟨.hbm, 45, rfl⟩
abbrev main_v33 : Ref sig .tc := ⟨.hbm, 46, rfl⟩
abbrev main_v34 : Ref sig .tc := ⟨.hbm, 47, rfl⟩
abbrev main_c_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_call1_cst : Ref sig .tc := ⟨.hbm, 63, rfl⟩
abbrev main_call1_v0 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩

abbrev nD : Nat := 1
abbrev τ : Topo := Topo.v7x

variable {F : FTy → Type} [FloatOps F]

class Facts₀ : Prop where
  slices_S2x524288_S1x524288_0_0 : S2x524288.Slices ![0, 0] S1x524288
  shapeCasts_S1x524288_S524288 : S1x524288.ShapeCasts S524288
  concatenates_S524288_S16384_S540672_d0 : Shape.Concatenates [S524288, S16384] S540672 0
  slices_S2x524288_S1x524288_1_0 : S2x524288.Slices ![1, 0] S1x524288
  bcast_S_S540672 : S_.BroadcastsInDim S540672 (![] : Fin 0 → Fin S540672.rank)
  bcast_S_S16384 : S_.BroadcastsInDim S16384 (![] : Fin 0 → Fin S16384.rank)
  bcast_S540672_S540672x1_0 : S540672.BroadcastsInDim S540672x1 (![0] : Fin 1 → Fin S540672x1.rank)
  bcast_S540672x1_S540672x128_0_1 : S540672x1.BroadcastsInDim S540672x128 (![0, 1] : Fin 2 → Fin S540672x128.rank)
  bcast_S_S16384x128 : S_.BroadcastsInDim S16384x128 (![] : Fin 0 → Fin S16384x128.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  transposes_S16384x128_S128x16384_1_0 : S16384x128.Transposes [1, 0] S128x16384
  dot_S16384x128_S128x128_S16384x128_1_0_0_1_n_n_wf : DotDims.WF S16384x128 S128x128 S16384x128 [1] [0] [0] [1] [] []
  scatter_S16384_S540672x1_S540672_n_0_0_1_wf : ScatterDims.WF S16384 S540672x1 S540672 [] [0] [0] 1
  gather_S16384_S540672x1_S540672_n_0_n_n_0_1_1_wf : GatherDims.WF S16384 S540672x1 S540672 [] [0] [] [0] [] 1 ![1]
  gather_S16384x128_S540672x1_S540672x128_1_0_n_n_0_1_1128_wf : GatherDims.WF S16384x128 S540672x1 S540672x128 [1] [0] [] [0] [] 1 ![1, 128]
  scatter_S16384x128_S540672x1_S540672x128_1_0_0_1_wf : ScatterDims.WF S16384x128 S540672x1 S540672x128 [1] [0] [0] 1
  dot_S16384x128_S128x16384_S16384x16384_1_0_0_1_n_n_wf : DotDims.WF S16384x128 S128x16384 S16384x16384 [1] [0] [0] [1] [] []

variable [Facts₀]

def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def scatter_S16384_S540672x1_S540672_n_0_0_1 : ScatterDims S16384 S540672x1 S540672 where
  updateWindowDims := []
  insertedWindowDims := [0]
  scatterDimsToOperandDims := [0]
  indexVectorDim := 1
  wf := scatter_S16384_S540672x1_S540672_n_0_0_1_wf
def gather_S16384_S540672x1_S540672_n_0_n_n_0_1_1 : GatherDims S16384 S540672x1 S540672 where
  offsetDims := []
  collapsedSliceDims := [0]
  operandBatchingDims := []
  startIndicesBatchingDims := []
  startIndexMap := [0]
  indexVectorDim := 1
  sliceSizes := ![1]
  wf := gather_S16384_S540672x1_S540672_n_0_n_n_0_1_1_wf
def gather_S16384x128_S540672x1_S540672x128_1_0_n_n_0_1_1128 : GatherDims S16384x128 S540672x1 S540672x128 where
  offsetDims := [1]
  collapsedSliceDims := [0]
  operandBatchingDims := []
  startIndicesBatchingDims := []
  startIndexMap := [0]
  indexVectorDim := 1
  sliceSizes := ![1, 128]
  wf := gather_S16384x128_S540672x1_S540672x128_1_0_n_n_0_1_1128_wf
def scatter_S16384x128_S540672x1_S540672x128_1_0_0_1 : ScatterDims S16384x128 S540672x1 S540672x128 where
  updateWindowDims := [1]
  insertedWindowDims := [0]
  scatterDimsToOperandDims := [0]
  indexVectorDim := 1
  wf := scatter_S16384x128_S540672x1_S540672x128_1_0_0_1_wf
def dot_S16384x128_S128x16384_S16384x16384_1_0_0_1_n_n : DotDims S16384x128 S128x16384 S16384x16384 where
  lhsContracting := [1]
  rhsContracting := [0]
  lhsNonContracting := [0]
  rhsNonContracting := [1]
  lhsBatch := []
  rhsBatch := []
  wf := dot_S16384x128_S128x16384_S16384x16384_1_0_0_1_n_n_wf

class Facts : Prop extends Facts₀ where

variable [Facts]
-- ==== Proof.KiBody.lean ====
/-
  The two kernels of the program, each run at one grid point.

  The program has two pipelined kernel regions. Region 0 multiplies a [2048, 128] block of rows of the first operand by
  the whole [128, 128] second operand; region 1 multiplies a [2048, 128] block of rows by the transpose of a [1024, 128]
  block of rows of the SAME array, into a [2048, 1024] tile. In both, the body loads its two input blocks whole,
  forms the product into a zero accumulator and stores it over the whole output block. This file states, for contents
  `V` of the buffers when a region is entered: what each window's block is at a grid point, what the body leaves in
  the output block as a function of the two input blocks, the body's run on its staging buffers, and the proof
  data of each pipeline — after the body at point `t` the inputs' buffers still hold their blocks and the output's holds
  the product of the two. In region 1 both input windows read one array, so each holds it at half a share.
-/
import proofs.«116991_j32590211842241_2_alg».proof.Proof.Gen.KernelIdeal.Launch
import proofs.«116991_j32590211842241_2_alg».proof.Proof.Gen.KernelIdeal.Skeleton
import proofs.«116991_j32590211842241_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # Region 0: rows of the first product -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the bodies load and store through. -/
abbrev rA : Rect S2048x128 := Rect.unit (s := S2048x128) ![0, 0] S2048x128.size inb_S2048x128_S2048x128_0_0
abbrev rW : Rect S128x128 := Rect.unit (s := S128x128) ![0, 0] S128x128.size inb_S128x128_S128x128_0_0
abbrev rB : Rect S1024x128 := Rect.unit (s := S1024x128) ![0, 0] S1024x128.size inb_S1024x128_S1024x128_0_0
abbrev rT : Rect S2048x1024 := Rect.unit (s := S2048x1024) ![0, 0] S2048x1024.size inb_S2048x1024_S2048x1024_0_0

/-- What region 0's body leaves in its output block: the product of the row block with the matrix, stored whole. -/
def out0_2 (x0 : Vec F S2048x128 .bf16) (x1 : Vec F S128x128 .bf16) : Vec F S2048x128 .f32 :=
  View.canon [⟨rA, k0_pay1 (View.ld x0 rA) (View.ld x1 rW)⟩]

/-- The one store covers the block. -/
theorem cover0_2 (p0 : Vec F S2048x128 .f32) (y : S2048x128.Idx) :
    ∃ pc ∈ ([⟨rA, p0⟩] : List (View.Piece (Elt F) S2048x128 .f32)), y ∈ pc.1.set :=
  View.cover_of_tiled [⟨rA, p0⟩] S2048x128.size (by rfl) y

set_option maxHeartbeats 1000000 in
/-- Region 0's body on whole staging buffers: the inputs are read and kept, the output ends at `out0_2` of the inputs. -/
theorem sound_kernel0 (c : Dev nD) (E : Set ℕ) (i : grid0.Coords) (arg1 : Memref sig .tc .vmem S2048x128 .bf16) (harg1 : arg1.IsWhole) (arg2 : Memref sig .tc .vmem S128x128 .bf16) (harg2 : arg2.IsWhole) (arg3 : Memref sig .tc .vmem S2048x128 .f32) (harg3 : arg3.IsWhole)
    (x0 : Vec F S2048x128 .bf16) (x1 : Vec F S128x128 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core `c`: the arrays as the region finds them; after the body at point `t` each
    input's buffer at its block, the output's at the product of the two; full shares; nothing owed. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of pipeline 0, at every point. -/
theorem body_obligation0 (c : Dev nD) : BodyObligation (dat0 (F := F) V c) (defs₀ (F := F)) Variants.none () Set.univ := fun t => by
  rw [bigSep_W0, bigSep_W0]
  exact sound_body0 V c t

/-! # Region 1: tiles of the second product -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- What region 1's body leaves in its output tile: the product of the row block with the transposed column block. -/
def out1_2 (x0 : Vec F S2048x128 .bf16) (x1 : Vec F S1024x128 .bf16) : Vec F S2048x1024 .f32 :=
  View.canon [⟨rT, k1_pay1 (View.ld x0 rA) (View.ld x1 rB)⟩]

theorem cover1_2 (p0 : Vec F S2048x1024 .f32) (y : S2048x1024.Idx) :
    ∃ pc ∈ ([⟨rT, p0⟩] : List (View.Piece (Elt F) S2048x1024 .f32)), y ∈ pc.1.set :=
  View.cover_of_tiled [⟨rT, p0⟩] S2048x1024.size (by rfl) y

set_option maxHeartbeats 1000000 in
/-- Region 1's body on whole staging buffers: the inputs are read and kept, the output ends at `out1_2` of the inputs. -/
theorem sound_kernel1 (c : Dev nD) (E : Set ℕ) (i : grid1.Coords) (arg2 : Memref sig .tc .vmem S2048x128 .bf16) (harg2 : arg2.IsWhole) (arg3 : Memref sig .tc .vmem S1024x128 .bf16) (harg3 : arg3.IsWhole) (arg4 : Memref sig .tc .vmem S2048x1024 .f32) (harg4 : arg4.IsWhole)
    (x0 : Vec F S2048x128 .bf16) (x1 : Vec F S1024x128 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1__decode_kernel i arg2 harg2 arg3 harg3 arg4 harg4) K := by
  simp only [cc1__decode_kernel_eq_skeleton]; unfold cc1__decode_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of pipeline 1 on core `c`. Its two input windows read ONE array, each at half a share. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of pipeline 1, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KiRun.lean ====
/-
  The whole run of the program: two kernel regions among stretches of host operations.

  Between two items of the program a core holds every unscoped buffer whole at known contents: the launch contents, then what
  each host stretch computes from them, and after a region the same contents with the region's one output array
  replaced by what the pipeline's write-backs leave (the inputs of a region are read, never written). Region 0 reads
  two distinct arrays; region 1 reads ONE array through both of its input windows, so at its entry the array's full
  share is cut in two halves, one per window, and at its exit the halves are joined again. The run's last contents are read
  against the final memory: every unscoped buffer ends at the last valuation.
-/
import proofs.«116991_j32590211842241_2_alg».proof.Proof.Gen.KernelIdeal.Regions
import proofs.«116991_j32590211842241_2_alg».proof.Proof.KiBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The contents at the two regions' entries and what the regions leave -/

/-- Region 0's entry contents, read at the core's references. -/
abbrev VR1 : (c : Dev nD) → (b : Ref sig .tc) → Buf (Elt F) ((c : Thread nD τ).loc b) := fun c b => Gen.V1 m c b
/-- What region 0 leaves in its output array: the write-backs of all its points. -/
def o2 (c : Dev nD) : Buf (Elt F) ((c : Thread nD τ).loc main_v2) := (dat0 (VR1 m) c).arrAt 2 cfg0.N
/-- The regions' outputs up to region 0's (region 1's entry contents depend on nothing else). -/
def outs1 : Outs (F := F) := fun _ r c => Function.update (Gen.V0 m c) main_v2 (o2 m c) r
/-- Region 1's entry contents. -/
abbrev VR7 : (c : Dev nD) → (b : Ref sig .tc) → Buf (Elt F) ((c : Thread nD τ).loc b) := fun c b => Gen.V7 m (outs1 m) c b
/-- What region 1 leaves in its output array. -/
def o8 (c : Dev nD) : Buf (Elt F) ((c : Thread nD τ).loc main_v52) := (dat1 (VR7 m) c).arrAt 2 cfg1.N
/-- Both regions' outputs. -/
def outs : Outs (F := F) := fun n r c => if n = 8 then Function.update (Gen.V0 m c) main_v52 (o8 m c) r else outs1 m n r c

theorem outs1_2 (c : Dev nD) : outs1 m 2 main_v2 c = o2 m c := by
  unfold outs1; exact Function.update_self _ _ _
theorem outs_2 (c : Dev nD) : outs m 2 main_v2 c = o2 m c := by
  unfold outs; rw [if_neg (by decide)]; exact outs1_2 m c
theorem outs_8 (c : Dev nD) : outs m 8 main_v52 c = o8 m c := by
  unfold outs; rw [if_pos rfl]; exact Function.update_self _ _ _

/-- The contents after region 0 do not depend on what region 1 will leave. -/
theorem V2_outs (c : Dev nD) : Gen.V2 m (outs m) c = Gen.V2 m (outs1 m) c := by
  unfold Gen.V2; rw [outs_2, outs1_2]
theorem V7_outs (c : Dev nD) : Gen.V7 m (outs m) c = Gen.V7 m (outs1 m) c := by
  unfold Gen.V7 Gen.V6 Gen.V5 Gen.V4 Gen.V3; rw [V2_outs]

/-- The contents after each region, read at the core's references. -/
abbrev VR2 : (c : Dev nD) → (b : Ref sig .tc) → Buf (Elt F) ((c : Thread nD τ).loc b) := fun c b => Gen.V2 m (outs m) c b
abbrev VR8 : (c : Dev nD) → (b : Ref sig .tc) → Buf (Elt F) ((c : Thread nD τ).loc b) := fun c b => Gen.V8 m (outs m) c b

/-! ## The proof data family and the thread state -/

/-- Every pipeline's proof data, each at its region's entry contents. -/
def pdats : (p : Fin 2) → (c : Dev nD) → Dat τ (Elt F) Unit ℕ (Pipeline.UD sig nD τ) ℕ (Pipeline.pin (pcfgs (F := F)) adm p) c
  | ⟨0, _⟩ => fun c => dat0 (VR1 m) c
  | ⟨1, _⟩ => fun c => dat1 (VR7 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

/-! ## Region 0 as a segment -/

/-- After region 0 each of its arrays holds what the pipeline leaves, every other buffer what it held at entry. -/
theorem hF0 (c : Dev nD) (w : Fin cfg0.W) : (dat0 (VR1 m) c).arrAt w cfg0.N = VR2 m c (Pipeline.arrRef spec0 w) := by
  match w with
  | ⟨0, _⟩ => exact ((dat0 (VR1 m) c).arrAt_in 0 rfl _).trans ((A_eq0 (VR1 m) c 0).trans (Gen.V2_of m (outs m) c main_v0 (by decide)).symm)
  | ⟨1, _⟩ => exact ((dat0 (VR1 m) c).arrAt_in 1 rfl _).trans ((A_eq0 (VR1 m) c 1).trans (Gen.V2_of m (outs m) c main_v1 (by decide)).symm)
  | ⟨2, _⟩ => exact ((Function.update_self (f := Gen.V1 m c) _ _).trans (outs_2 m c)).symm
theorem hrest0 (c : Dev nD) : ∀ b, b ∉ Finset.univ.image (Pipeline.arrRef spec0) → VR2 m c b = VR1 m c b :=
  fun b hb => Gen.V2_of m (outs m) c b fun h => hb (by
    rcases List.mem_singleton.mp h with rfl
    exact Finset.mem_image.mpr ⟨2, Finset.mem_univ _, rfl⟩)

set_option backward.isDefEq.respectTransparency.types false in
/-- Region 0 over the thread state: entered from every unscoped buffer at the contents after the first host stretch,
    left at the same contents with its output array replaced. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VR1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec0 c (VR1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VR1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (VR1 m c) (VR2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KiReg1.lean ====
/-
  Region 1 as a segment of the run. Both of its input windows read the one array `main_v51`: at the region's entry the
  array's full share is cut in two halves, the left for window 0 and the right for window 1, while the output array
  is held whole; at the exit the halves are joined, and the core's unscoped buffers are again held whole, at the entry
  contents with the output array replaced by what the pipeline's write-backs leave.
-/
import proofs.«116991_j32590211842241_2_alg».proof.Proof.KiRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The contents after region 1: the entry contents with the output array replaced. -/
abbrev W8 (c : Dev nD) : Valuation τ sig (Elt F) := Function.update (Gen.V7 m (outs1 m) c) main_v52 (o8 m c)
abbrev VR8' : (c : Dev nD) → (b : Ref sig .tc) → Buf (Elt F) ((c : Thread nD τ).loc b) := fun c b => W8 m c b

theorem V8_outs (c : Dev nD) : Gen.V8 m (outs m) c = W8 m c := by
  unfold Gen.V8 W8; rw [V7_outs, outs_8]

/-- The buffers behind region 1's windows are two. -/
theorem arrImage1 : Finset.univ.image (Pipeline.arrRef spec1) = ({main_v51, main_v52} : Finset (Ref sig .tc)) := by decide

/-- The distinct buffers behind region 1's arrays, whole at contents `V`: the shared input and the output. -/
theorem arrBufs1_eq (c : Dev nD) (V : (b : Ref sig .tc) → Buf (Elt F) ((c : Thread nD τ).loc b)) :
    (Pipeline.arrBufs (Ix := Unit) (Name := ℕ) (U := Pipeline.UD sig nD τ) (Lvl := ℕ) spec1 c V : sProp 𝕄)
      = iprop((((c : Thread nD τ).loc main_v51) ↦{fullShare} V main_v51) ∗ (((c : Thread nD τ).loc main_v52) ↦{fullShare} V main_v52)) := by
  unfold Pipeline.arrBufs
  rw [arrImage1, bigSep_insert (by decide), bigSep_singleton]
  rfl

/-- Region 1's arrays at contents `G`: the shared input at its two halves, the output whole. -/
theorem arrays1_eq (c : Dev nD) (G : (w : Fin cfg1.W) → Buf (Elt F) ((cfg1.win w).arr.view.loc (c : Thread nD τ))) :
    ((dat1 (VR7 m) c).arrays G : sProp 𝕄)
      = iprop((((c : Thread nD τ).loc main_v51) ↦{fullShare.left} G 0) ∗ (((c : Thread nD τ).loc main_v51) ↦{fullShare.right} G 1)
          ∗ (((c : Thread nD τ).loc main_v52) ↦{fullShare} G 2)) := by
  unfold Dat.arrays
  rw [bigSep_W1, (arr_whole1 0).set_eq_univ, (arr_whole1 2).set_eq_univ]
  rfl

/-- Region 1's arrays as the region finds them. -/
theorem arrays1_entry (c : Dev nD) :
    ((dat1 (VR7 m) c).arrays ((dat1 (VR7 m) c).arrAt · 0) : sProp 𝕄)
      = iprop((((c : Thread nD τ).loc main_v51) ↦{fullShare.left} VR7 m c main_v51) ∗ (((c : Thread nD τ).loc main_v51) ↦{fullShare.right} VR7 m c main_v51)
          ∗ (((c : Thread nD τ).loc main_v52) ↦{fullShare} VR7 m c main_v52)) := by
  rw [arrays1_eq]; rfl

/-- Region 1's arrays as the region leaves them: the shared input unchanged, the output at the write-backs' result. -/
theorem arrays1_exit (c : Dev nD) :
    ((dat1 (VR7 m) c).arrays ((dat1 (VR7 m) c).arrAt · cfg1.N) : sProp 𝕄)
      = iprop((((c : Thread nD τ).loc main_v51) ↦{fullShare.left} VR7 m c main_v51) ∗ (((c : Thread nD τ).loc main_v51) ↦{fullShare.right} VR7 m c main_v51)
          ∗ (((c : Thread nD τ).loc main_v52) ↦{fullShare} o8 m c)) := by
  rw [arrays1_eq, (dat1 (VR7 m) c).arrAt_in 0 rfl, (dat1 (VR7 m) c).arrAt_in 1 rfl, A_eq1, A_eq1]; rfl

/-- ENTRY: the core's unscoped buffers at region 1's entry contents are its arrays — the shared input cut in two halves —
    and the rest. -/
theorem entry1 (c : Dev nD) :
    (StableHlo.held (c : Thread nD τ) (Pipeline.ucRefs τ sig) (Gen.V7 m (outs1 m) c) : sProp 𝕄)
      ⊢ iprop((dat1 (VR7 m) c).arrays ((dat1 (VR7 m) c).arrAt · 0)
          ∗ Pipeline.unscopedRest (Ix := Unit) (Name := ℕ) (U := Pipeline.UD sig nD τ) (Lvl := ℕ) spec1 c (VR7 m c)) := by
  have hub : (StableHlo.held (c : Thread nD τ) (Pipeline.ucRefs τ sig) (Gen.V7 m (outs1 m) c) : sProp 𝕄)
      = iprop(Pipeline.arrBufs spec1 c (VR7 m c) ∗ Pipeline.unscopedRest spec1 c (VR7 m c)) :=
    (Pipeline.unscopedBufs_held c (Gen.V7 m (outs1 m) c)).symm.trans
      (Pipeline.unscopedBufs_split₀ (Pipeline.pin (pcfgs (F := F)) adm) (1 : Fin 2) winFacts₀1.arr_unscoped
        (Ix := Unit) (Name := ℕ) (U := Pipeline.UD sig nD τ) (Lvl := ℕ) c (VR7 m c))
  rw [arrays1_entry]
  iintro Hub
  ihave H := (Entails.of_eq hub) $$ Hub
  icases H with ⟨Ha, Hrest⟩
  ihave Ha := (Entails.of_eq (arrBufs1_eq c (VR7 m c))) $$ Ha
  icases Ha with ⟨H51, H52⟩
  ihave H51 := (pointsTo_share (PosShare.mem_left_op_right fullShare)).1 $$ H51
  icases H51 with ⟨H51l, H51r⟩
  isplitl [H51l H51r H52]
  · isplitl [H51l]; · iexact H51l
    isplitl [H51r]; · iexact H51r
    iexact H52
  iexact Hrest

/-- Off the output array the contents after region 1 are the entry contents. -/
theorem W8_of_ne (c : Dev nD) (b : Ref sig .tc) (hb : b ≠ main_v52) : VR8' m c b = VR7 m c b :=
  Function.update_of_ne (StableHlo.devRef_ne_of_ne hb) _ _

/-- EXIT: region 1's arrays as it leaves them — the halves of the shared input joined — and the rest are the core's
    unscoped buffers at the entry contents with the output array replaced. -/
theorem exit1 (c : Dev nD) :
    iprop((dat1 (VR7 m) c).arrays ((dat1 (VR7 m) c).arrAt · cfg1.N)
        ∗ Pipeline.unscopedRest (Ix := Unit) (Name := ℕ) (U := Pipeline.UD sig nD τ) (Lvl := ℕ) spec1 c (VR7 m c))
      ⊢ (StableHlo.held (c : Thread nD τ) (Pipeline.ucRefs τ sig) (W8 m c) : sProp 𝕄) := by
  have hub : (StableHlo.held (c : Thread nD τ) (Pipeline.ucRefs τ sig) (W8 m c) : sProp 𝕄)
      = iprop(Pipeline.arrBufs spec1 c (VR8' m c) ∗ Pipeline.unscopedRest spec1 c (VR8' m c)) :=
    (Pipeline.unscopedBufs_held c (W8 m c)).symm.trans
      (Pipeline.unscopedBufs_split₀ (Pipeline.pin (pcfgs (F := F)) adm) (1 : Fin 2) winFacts₀1.arr_unscoped
        (Ix := Unit) (Name := ℕ) (U := Pipeline.UD sig nD τ) (Lvl := ℕ) c (VR8' m c))
  have hrest : (Pipeline.unscopedRest (Ix := Unit) (Name := ℕ) (U := Pipeline.UD sig nD τ) (Lvl := ℕ) spec1 c (VR8' m c) : sProp 𝕄)
      = Pipeline.unscopedRest spec1 c (VR7 m c) := by
    unfold Pipeline.unscopedRest
    exact bigSep_congr fun b hb => by
      rw [W8_of_ne m c b fun h => (Finset.mem_sdiff.mp hb).2 (h ▸ Finset.mem_image.mpr ⟨2, Finset.mem_univ _, rfl⟩)]
  have h51 : VR8' m c main_v51 = VR7 m c main_v51 := W8_of_ne m c main_v51 (by decide)
  have h52 : VR8' m c main_v52 = o8 m c := Function.update_self _ _ _
  rw [hub, arrBufs1_eq, hrest, h51, h52, arrays1_exit]
  iintro ⟨⟨H51l, H51r, H52⟩, Hrest⟩
  isplitl [H51l H51r H52]
  · isplitl [H51l H51r]
    · iapply (pointsTo_share (PosShare.mem_left_op_right fullShare)).2
      isplitl [H51l]; · iexact H51l
      iexact H51r
    iexact H52
  iexact Hrest

set_option backward.isDefEq.respectTransparency.types false in
/-- Region 1 over the thread state: entered from every unscoped buffer at the contents after the last host stretch,
    left at the same contents with its output array replaced. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (VR7 m) c).loose
  hwaits := Pipeline.hwaits_of_owed_zero _ _ _ _ L lv 1 fun _ _ => rfl
  pre c := iprop(StableHlo.held (c : Thread nD τ) (Pipeline.ucRefs τ sig) (Gen.V7 m (outs1 m) c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := Pipeline.UD sig nD τ) (Lvl := ℕ) spec1 c (VR7 m c)
  hentry c := by
    rw [Pipeline.ownSems0_none]
    have he : (StableHlo.held (c : Thread nD τ) (Pipeline.ucRefs τ sig) (Gen.V7 m (outs1 m) c) : sProp 𝕄)
        ⊢ iprop((pdats m 1 c).arrays ((pdats m 1 c).arrAt · 0)
          ∗ Pipeline.unscopedRest (Ix := Unit) (Name := ℕ) (U := Pipeline.UD sig nD τ) (Lvl := ℕ) spec1 c (VR7 m c)) := entry1 m c
    iintro ⟨⟨Hub, Hp, HO⟩, -, -⟩
    ihave H := he $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hx : iprop((pdats m 1 c).arrays ((pdats m 1 c).arrAt · (Pipeline.pin (pcfgs (F := F)) adm 1).N)
          ∗ Pipeline.unscopedRest (Ix := Unit) (Name := ℕ) (U := Pipeline.UD sig nD τ) (Lvl := ℕ) spec1 c (VR7 m c))
        ⊢ (StableHlo.held (c : Thread nD τ) (Pipeline.ucRefs τ sig) (W8 m c) : sProp 𝕄) := exit1 m c
    iintro ⟨Ha, HO, HY, Hrest⟩
    imodintro
    isplitl [Ha Hrest]
    · iapply hx; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KiMain.lean ====
/-
  The run of the whole program from the launch to the return: the host stretches and the two kernel regions composed
  in order, every weakly fair execution terminating with each unscoped buffer of each core at the last contents — the
  launch contents carried through the host operations, with the first region's output array at what its write-backs
  leave and the second's likewise.
-/
import proofs.«116991_j32590211842241_2_alg».proof.Proof.KiReg1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What rides beside the buffers between any two items. -/
abbrev E : Fin 3 → Dev nD → sProp 𝕄 := fun _ c => R c

theorem hpre1 (c : Dev nD) :
    iprop(StableHlo.held (c : Thread nD τ) (Pipeline.ucRefs τ sig) (Gen.V7 m (outs m) c) ∗ E (F := F) 1 c) ⊢ (reg1 m).pre c := by
  rw [V7_outs m c]; exact .rfl

theorem hpost1 (c : Dev nD) :
    (reg1 m).post c ⊢ iprop(StableHlo.held (c : Thread nD τ) (Pipeline.ucRefs τ sig) (Gen.V8 m (outs m) c) ∗ E (F := F) 2 c) := by
  rw [V8_outs m c]; exact .rfl

set_option backward.isDefEq.respectTransparency.types false in
/-- THE RUN: every weakly fair execution of the program from memory `m` terminates, and every final memory holds each
    unscoped buffer of each core at the last contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = Gen.V8 m (outs m) c b) := by
  refine Pipeline.θ_run_regions_kit_dev (pcfgs (F := F)) adm (pdats m) () cellOf_inj embL defs₀ 𝒱₀ L lv m ρ main
    (Gen.segs m (outs m) 𝒱₀ L lv (E (F := F)) () (pdats m) (reg0 m) (reg1 m))
    (fun c Q => by
      rewrite [main_chain c, Seg.run_eq_chain,
        show (Gen.segs m (outs m) 𝒱₀ L lv (E (F := F)) () (pdats m) (reg0 m) (reg1 m) c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()) ] from rfl]
      exact .rfl)
    (fun c => by simp only [Gen.segs, Seg.pipes_host, Seg.pipes_region, Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ E (F := F) 0 c))
    (Tₙ := fun c => StableHlo.held (c : Thread nD τ) (Pipeline.ucRefs τ sig) (Gen.V8 m (outs m) c))
    (hch := fun c => ⟨.rfl, .rfl, .rfl, .rfl, .rfl, .rfl, .rfl, hpre1 m c,
      (hpost1 m c).trans (sep_mono .rfl (by iintro ⟨-, H⟩; iexact H))⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = Gen.V8 m (outs m) c b)
    (hfin := fun c s' => by
      iintro ⟨Hh, HSI⟩
      unfold StableHlo.held
      imodintro
      iapply (pointsTo_read_all (Pipeline.ucRefs τ sig) (fun b => (((c : Thread nD τ)).1, b)) (Gen.V8 m (outs m) c) s')
      isplitl [Hh] <;> iassumption)
    (hQ := fun _ h => h)

/-- An unscoped reference of the core is among those the run's last state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: the program runs to the end and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (Gen.V8_main_arg0 m (outs m) c),
     (h c _ (mem_uc main_arg1 (by decide))).trans (Gen.V8_main_arg1 m (outs m) c),
     (h c _ (mem_uc main_arg2 (by decide))).trans (Gen.V8_main_arg2 m (outs m) c),
     (h c _ (mem_uc main_arg3 (by decide))).trans (Gen.V8_main_arg3 m (outs m) c)⟩) (run_all m ρ)

/-- The result array ends at what region 1's write-backs leave. -/
theorem result_eq (c : Dev nD) : Gen.V8 m (outs m) c main_v52 = o8 m c :=
  (Function.update_self _ _ _).trans (outs_8 m c)

end Cert.KernelIdeal.Hand

end
-- ==== Proof.KiBodyB.lean ====
/-
  The two kernels of the program, each run at one grid point.

  The program has two pipelined kernel regions. Region 0 multiplies a [2048, 128] block of rows of the first operand by
  the whole [128, 128] second operand; region 1 multiplies a [2048, 128] block of rows by the transpose of a [1024, 128]
  block of rows of the SAME array, into a [2048, 1024] tile. In both, the body loads its two input blocks whole,
  forms the product into a zero accumulator and stores it over the whole output block. This file states, for contents
  `V` of the buffers when a region is entered: what each window's block is at a grid point, what the body leaves in
  the output block as a function of the two input blocks, the body's run on its staging buffers, and the proof
  data of each pipeline — after the body at point `t` the inputs' buffers still hold their blocks and the output's holds
  the product of the two. In region 1 both input windows read one array, so each holds it at half a share.
-/
import proofs.«116991_j32590211842241_2_alg».proof.Proof.Gen.Kernel.Launch
import proofs.«116991_j32590211842241_2_alg».proof.Proof.Gen.Kernel.Skeleton
import proofs.«116991_j32590211842241_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # Region 0: rows of the first product -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the bodies load and store through. -/
abbrev rA : Rect S2048x128 := Rect.unit (s := S2048x128) ![0, 0] S2048x128.size inb_S2048x128_S2048x128_0_0
abbrev rW : Rect S128x128 := Rect.unit (s := S128x128) ![0, 0] S128x128.size inb_S128x128_S128x128_0_0
abbrev rB : Rect S1024x128 := Rect.unit (s := S1024x128) ![0, 0] S1024x128.size inb_S1024x128_S1024x128_0_0
abbrev rT : Rect S2048x1024 := Rect.unit (s := S2048x1024) ![0, 0] S2048x1024.size inb_S2048x1024_S2048x1024_0_0

/-- What region 0's body leaves in its output block: the product of the row block with the matrix, stored whole. -/
def out0_2 (x0 : Vec F S2048x128 .bf16) (x1 : Vec F S128x128 .bf16) : Vec F S2048x128 .f32 :=
  View.canon [⟨rA, k0_pay1 (View.ld x0 rA) (View.ld x1 rW)⟩]

/-- The one store covers the block. -/
theorem cover0_2 (p0 : Vec F S2048x128 .f32) (y : S2048x128.Idx) :
    ∃ pc ∈ ([⟨rA, p0⟩] : List (View.Piece (Elt F) S2048x128 .f32)), y ∈ pc.1.set :=
  View.cover_of_tiled [⟨rA, p0⟩] S2048x128.size (by rfl) y

set_option maxHeartbeats 1000000 in
/-- Region 0's body on whole staging buffers: the inputs are read and kept, the output ends at `out0_2` of the inputs. -/
theorem sound_kernel0 (c : Dev nD) (E : Set ℕ) (i : grid0.Coords) (arg1 : Memref sig .tc .vmem S2048x128 .bf16) (harg1 : arg1.IsWhole) (arg2 : Memref sig .tc .vmem S128x128 .bf16) (harg2 : arg2.IsWhole) (arg3 : Memref sig .tc .vmem S2048x128 .f32) (harg3 : arg3.IsWhole)
    (x0 : Vec F S2048x128 .bf16) (x1 : Vec F S128x128 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core `c`: the arrays as the region finds them; after the body at point `t` each
    input's buffer at its block, the output's at the product of the two; full shares; nothing owed. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of pipeline 0, at every point. -/
theorem body_obligation0 (c : Dev nD) : BodyObligation (dat0 (F := F) V c) (defs₀ (F := F)) Variants.none () Set.univ := fun t => by
  rw [bigSep_W0, bigSep_W0]
  exact sound_body0 V c t

/-! # Region 1: tiles of the second product -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- What region 1's body leaves in its output tile: the product of the row block with the transposed column block. -/
def out1_2 (x0 : Vec F S2048x128 .bf16) (x1 : Vec F S1024x128 .bf16) : Vec F S2048x1024 .f32 :=
  View.canon [⟨rT, k1_pay1 (View.ld x0 rA) (View.ld x1 rB)⟩]

theorem cover1_2 (p0 : Vec F S2048x1024 .f32) (y : S2048x1024.Idx) :
    ∃ pc ∈ ([⟨rT, p0⟩] : List (View.Piece (Elt F) S2048x1024 .f32)), y ∈ pc.1.set :=
  View.cover_of_tiled [⟨rT, p0⟩] S2048x1024.size (by rfl) y

set_option maxHeartbeats 1000000 in
/-- Region 1's body on whole staging buffers: the inputs are read and kept, the output ends at `out1_2` of the inputs. -/
theorem sound_kernel1 (c : Dev nD) (E : Set ℕ) (i : grid1.Coords) (arg2 : Memref sig .tc .vmem S2048x128 .bf16) (harg2 : arg2.IsWhole) (arg3 : Memref sig .tc .vmem S1024x128 .bf16) (harg3 : arg3.IsWhole) (arg4 : Memref sig .tc .vmem S2048x1024 .f32) (harg4 : arg4.IsWhole)
    (x0 : Vec F S2048x128 .bf16) (x1 : Vec F S1024x128 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1__decode_kernel i arg2 harg2 arg3 harg3 arg4 harg4) K := by
  simp only [cc1__decode_kernel_eq_skeleton]; unfold cc1__decode_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of pipeline 1 on core `c`. Its two input windows read ONE array, each at half a share. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of pipeline 1, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KiRunB.lean ====
/-
  The whole run of the program: two kernel regions among stretches of host operations.

  Between two items of the program a core holds every unscoped buffer whole at known contents: the launch contents, then what
  each host stretch computes from them, and after a region the same contents with the region's one output array
  replaced by what the pipeline's write-backs leave (the inputs of a region are read, never written). Region 0 reads
  two distinct arrays; region 1 reads ONE array through both of its input windows, so at its entry the array's full
  share is cut in two halves, one per window, and at its exit the halves are joined again. The run's last contents are read
  against the final memory: every unscoped buffer ends at the last valuation.
-/
import proofs.«116991_j32590211842241_2_alg».proof.Proof.Gen.Kernel.Regions
import proofs.«116991_j32590211842241_2_alg».proof.Proof.KiBodyB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The contents at the two regions' entries and what the regions leave -/

/-- Region 0's entry contents, read at the core's references. -/
abbrev VR1 : (c : Dev nD) → (b : Ref sig .tc) → Buf (Elt F) ((c : Thread nD τ).loc b) := fun c b => Gen.V1 m c b
/-- What region 0 leaves in its output array: the write-backs of all its points. -/
def o2 (c : Dev nD) : Buf (Elt F) ((c : Thread nD τ).loc main_v2) := (dat0 (VR1 m) c).arrAt 2 cfg0.N
/-- The regions' outputs up to region 0's (region 1's entry contents depend on nothing else). -/
def outs1 : Outs (F := F) := fun _ r c => Function.update (Gen.V0 m c) main_v2 (o2 m c) r
/-- Region 1's entry contents. -/
abbrev VR7 : (c : Dev nD) → (b : Ref sig .tc) → Buf (Elt F) ((c : Thread nD τ).loc b) := fun c b => Gen.V7 m (outs1 m) c b
/-- What region 1 leaves in its output array. -/
def o8 (c : Dev nD) : Buf (Elt F) ((c : Thread nD τ).loc main_v52) := (dat1 (VR7 m) c).arrAt 2 cfg1.N
/-- Both regions' outputs. -/
def outs : Outs (F := F) := fun n r c => if n = 8 then Function.update (Gen.V0 m c) main_v52 (o8 m c) r else outs1 m n r c

theorem outs1_2 (c : Dev nD) : outs1 m 2 main_v2 c = o2 m c := by
  unfold outs1; exact Function.update_self _ _ _
theorem outs_2 (c : Dev nD) : outs m 2 main_v2 c = o2 m c := by
  unfold outs; rw [if_neg (by decide)]; exact outs1_2 m c
theorem outs_8 (c : Dev nD) : outs m 8 main_v52 c = o8 m c := by
  unfold outs; rw [if_pos rfl]; exact Function.update_self _ _ _

/-- The contents after region 0 do not depend on what region 1 will leave. -/
theorem V2_outs (c : Dev nD) : Gen.V2 m (outs m) c = Gen.V2 m (outs1 m) c := by
  unfold Gen.V2; rw [outs_2, outs1_2]
theorem V7_outs (c : Dev nD) : Gen.V7 m (outs m) c = Gen.V7 m (outs1 m) c := by
  unfold Gen.V7 Gen.V6 Gen.V5 Gen.V4 Gen.V3; rw [V2_outs]

/-- The contents after each region, read at the core's references. -/
abbrev VR2 : (c : Dev nD) → (b : Ref sig .tc) → Buf (Elt F) ((c : Thread nD τ).loc b) := fun c b => Gen.V2 m (outs m) c b
abbrev VR8 : (c : Dev nD) → (b : Ref sig .tc) → Buf (Elt F) ((c : Thread nD τ).loc b) := fun c b => Gen.V8 m (outs m) c b

/-! ## The proof data family and the thread state -/

/-- Every pipeline's proof data, each at its region's entry contents. -/
def pdats : (p : Fin 2) → (c : Dev nD) → Dat τ (Elt F) Unit ℕ (Pipeline.UD sig nD τ) ℕ (Pipeline.pin (pcfgs (F := F)) adm p) c
  | ⟨0, _⟩ => fun c => dat0 (VR1 m) c
  | ⟨1, _⟩ => fun c => dat1 (VR7 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

/-! ## Region 0 as a segment -/

/-- After region 0 each of its arrays holds what the pipeline leaves, every other buffer what it held at entry. -/
theorem hF0 (c : Dev nD) (w : Fin cfg0.W) : (dat0 (VR1 m) c).arrAt w cfg0.N = VR2 m c (Pipeline.arrRef spec0 w) := by
  match w with
  | ⟨0, _⟩ => exact ((dat0 (VR1 m) c).arrAt_in 0 rfl _).trans ((A_eq0 (VR1 m) c 0).trans (Gen.V2_of m (outs m) c main_v0 (by decide)).symm)
  | ⟨1, _⟩ => exact ((dat0 (VR1 m) c).arrAt_in 1 rfl _).trans ((A_eq0 (VR1 m) c 1).trans (Gen.V2_of m (outs m) c main_v1 (by decide)).symm)
  | ⟨2, _⟩ => exact ((Function.update_self (f := Gen.V1 m c) _ _).trans (outs_2 m c)).symm
theorem hrest0 (c : Dev nD) : ∀ b, b ∉ Finset.univ.image (Pipeline.arrRef spec0) → VR2 m c b = VR1 m c b :=
  fun b hb => Gen.V2_of m (outs m) c b fun h => hb (by
    rcases List.mem_singleton.mp h with rfl
    exact Finset.mem_image.mpr ⟨2, Finset.mem_univ _, rfl⟩)

set_option backward.isDefEq.respectTransparency.types false in
/-- Region 0 over the thread state: entered from every unscoped buffer at the contents after the first host stretch,
    left at the same contents with its output array replaced. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VR1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec0 c (VR1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VR1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (VR1 m c) (VR2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KiReg1B.lean ====
/-
  Region 1 as a segment of the run. Both of its input windows read the one array `main_v51`: at the region's entry the
  array's full share is cut in two halves, the left for window 0 and the right for window 1, while the output array
  is held whole; at the exit the halves are joined, and the core's unscoped buffers are again held whole, at the entry
  contents with the output array replaced by what the pipeline's write-backs leave.
-/
import proofs.«116991_j32590211842241_2_alg».proof.Proof.KiRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The contents after region 1: the entry contents with the output array replaced. -/
abbrev W8 (c : Dev nD) : Valuation τ sig (Elt F) := Function.update (Gen.V7 m (outs1 m) c) main_v52 (o8 m c)
abbrev VR8' : (c : Dev nD) → (b : Ref sig .tc) → Buf (Elt F) ((c : Thread nD τ).loc b) := fun c b => W8 m c b

theorem V8_outs (c : Dev nD) : Gen.V8 m (outs m) c = W8 m c := by
  unfold Gen.V8 W8; rw [V7_outs, outs_8]

/-- The buffers behind region 1's windows are two. -/
theorem arrImage1 : Finset.univ.image (Pipeline.arrRef spec1) = ({main_v51, main_v52} : Finset (Ref sig .tc)) := by decide

/-- The distinct buffers behind region 1's arrays, whole at contents `V`: the shared input and the output. -/
theorem arrBufs1_eq (c : Dev nD) (V : (b : Ref sig .tc) → Buf (Elt F) ((c : Thread nD τ).loc b)) :
    (Pipeline.arrBufs (Ix := Unit) (Name := ℕ) (U := Pipeline.UD sig nD τ) (Lvl := ℕ) spec1 c V : sProp 𝕄)
      = iprop((((c : Thread nD τ).loc main_v51) ↦{fullShare} V main_v51) ∗ (((c : Thread nD τ).loc main_v52) ↦{fullShare} V main_v52)) := by
  unfold Pipeline.arrBufs
  rw [arrImage1, bigSep_insert (by decide), bigSep_singleton]
  rfl

/-- Region 1's arrays at contents `G`: the shared input at its two halves, the output whole. -/
theorem arrays1_eq (c : Dev nD) (G : (w : Fin cfg1.W) → Buf (Elt F) ((cfg1.win w).arr.view.loc (c : Thread nD τ))) :
    ((dat1 (VR7 m) c).arrays G : sProp 𝕄)
      = iprop((((c : Thread nD τ).loc main_v51) ↦{fullShare.left} G 0) ∗ (((c : Thread nD τ).loc main_v51) ↦{fullShare.right} G 1)
          ∗ (((c : Thread nD τ).loc main_v52) ↦{fullShare} G 2)) := by
  unfold Dat.arrays
  rw [bigSep_W1, (arr_whole1 0).set_eq_univ, (arr_whole1 2).set_eq_univ]
  rfl

/-- Region 1's arrays as the region finds them. -/
theorem arrays1_entry (c : Dev nD) :
    ((dat1 (VR7 m) c).arrays ((dat1 (VR7 m) c).arrAt · 0) : sProp 𝕄)
      = iprop((((c : Thread nD τ).loc main_v51) ↦{fullShare.left} VR7 m c main_v51) ∗ (((c : Thread nD τ).loc main_v51) ↦{fullShare.right} VR7 m c main_v51)
          ∗ (((c : Thread nD τ).loc main_v52) ↦{fullShare} VR7 m c main_v52)) := by
  rw [arrays1_eq]; rfl

/-- Region 1's arrays as the region leaves them: the shared input unchanged, the output at the write-backs' result. -/
theorem arrays1_exit (c : Dev nD) :
    ((dat1 (VR7 m) c).arrays ((dat1 (VR7 m) c).arrAt · cfg1.N) : sProp 𝕄)
      = iprop((((c : Thread nD τ).loc main_v51) ↦{fullShare.left} VR7 m c main_v51) ∗ (((c : Thread nD τ).loc main_v51) ↦{fullShare.right} VR7 m c main_v51)
          ∗ (((c : Thread nD τ).loc main_v52) ↦{fullShare} o8 m c)) := by
  rw [arrays1_eq, (dat1 (VR7 m) c).arrAt_in 0 rfl, (dat1 (VR7 m) c).arrAt_in 1 rfl, A_eq1, A_eq1]; rfl

/-- ENTRY: the core's unscoped buffers at region 1's entry contents are its arrays — the shared input cut in two halves —
    and the rest. -/
theorem entry1 (c : Dev nD) :
    (StableHlo.held (c : Thread nD τ) (Pipeline.ucRefs τ sig) (Gen.V7 m (outs1 m) c) : sProp 𝕄)
      ⊢ iprop((dat1 (VR7 m) c).arrays ((dat1 (VR7 m) c).arrAt · 0)
          ∗ Pipeline.unscopedRest (Ix := Unit) (Name := ℕ) (U := Pipeline.UD sig nD τ) (Lvl := ℕ) spec1 c (VR7 m c)) := by
  have hub : (StableHlo.held (c : Thread nD τ) (Pipeline.ucRefs τ sig) (Gen.V7 m (outs1 m) c) : sProp 𝕄)
      = iprop(Pipeline.arrBufs spec1 c (VR7 m c) ∗ Pipeline.unscopedRest spec1 c (VR7 m c)) :=
    (Pipeline.unscopedBufs_held c (Gen.V7 m (outs1 m) c)).symm.trans
      (Pipeline.unscopedBufs_split₀ (Pipeline.pin (pcfgs (F := F)) adm) (1 : Fin 2) winFacts₀1.arr_unscoped
        (Ix := Unit) (Name := ℕ) (U := Pipeline.UD sig nD τ) (Lvl := ℕ) c (VR7 m c))
  rw [arrays1_entry]
  iintro Hub
  ihave H := (Entails.of_eq hub) $$ Hub
  icases H with ⟨Ha, Hrest⟩
  ihave Ha := (Entails.of_eq (arrBufs1_eq c (VR7 m c))) $$ Ha
  icases Ha with ⟨H51, H52⟩
  ihave H51 := (pointsTo_share (PosShare.mem_left_op_right fullShare)).1 $$ H51
  icases H51 with ⟨H51l, H51r⟩
  isplitl [H51l H51r H52]
  · isplitl [H51l]; · iexact H51l
    isplitl [H51r]; · iexact H51r
    iexact H52
  iexact Hrest

/-- Off the output array the contents after region 1 are the entry contents. -/
theorem W8_of_ne (c : Dev nD) (b : Ref sig .tc) (hb : b ≠ main_v52) : VR8' m c b = VR7 m c b :=
  Function.update_of_ne (StableHlo.devRef_ne_of_ne hb) _ _

/-- EXIT: region 1's arrays as it leaves them — the halves of the shared input joined — and the rest are the core's
    unscoped buffers at the entry contents with the output array replaced. -/
theorem exit1 (c : Dev nD) :
    iprop((dat1 (VR7 m) c).arrays ((dat1 (VR7 m) c).arrAt · cfg1.N)
        ∗ Pipeline.unscopedRest (Ix := Unit) (Name := ℕ) (U := Pipeline.UD sig nD τ) (Lvl := ℕ) spec1 c (VR7 m c))
      ⊢ (StableHlo.held (c : Thread nD τ) (Pipeline.ucRefs τ sig) (W8 m c) : sProp 𝕄) := by
  have hub : (StableHlo.held (c : Thread nD τ) (Pipeline.ucRefs τ sig) (W8 m c) : sProp 𝕄)
      = iprop(Pipeline.arrBufs spec1 c (VR8' m c) ∗ Pipeline.unscopedRest spec1 c (VR8' m c)) :=
    (Pipeline.unscopedBufs_held c (W8 m c)).symm.trans
      (Pipeline.unscopedBufs_split₀ (Pipeline.pin (pcfgs (F := F)) adm) (1 : Fin 2) winFacts₀1.arr_unscoped
        (Ix := Unit) (Name := ℕ) (U := Pipeline.UD sig nD τ) (Lvl := ℕ) c (VR8' m c))
  have hrest : (Pipeline.unscopedRest (Ix := Unit) (Name := ℕ) (U := Pipeline.UD sig nD τ) (Lvl := ℕ) spec1 c (VR8' m c) : sProp 𝕄)
      = Pipeline.unscopedRest spec1 c (VR7 m c) := by
    unfold Pipeline.unscopedRest
    exact bigSep_congr fun b hb => by
      rw [W8_of_ne m c b fun h => (Finset.mem_sdiff.mp hb).2 (h ▸ Finset.mem_image.mpr ⟨2, Finset.mem_univ _, rfl⟩)]
  have h51 : VR8' m c main_v51 = VR7 m c main_v51 := W8_of_ne m c main_v51 (by decide)
  have h52 : VR8' m c main_v52 = o8 m c := Function.update_self _ _ _
  rw [hub, arrBufs1_eq, hrest, h51, h52, arrays1_exit]
  iintro ⟨⟨H51l, H51r, H52⟩, Hrest⟩
  isplitl [H51l H51r H52]
  · isplitl [H51l H51r]
    · iapply (pointsTo_share (PosShare.mem_left_op_right fullShare)).2
      isplitl [H51l]; · iexact H51l
      iexact H51r
    iexact H52
  iexact Hrest

set_option backward.isDefEq.respectTransparency.types false in
/-- Region 1 over the thread state: entered from every unscoped buffer at the contents after the last host stretch,
    left at the same contents with its output array replaced. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (VR7 m) c).loose
  hwaits := Pipeline.hwaits_of_owed_zero _ _ _ _ L lv 1 fun _ _ => rfl
  pre c := iprop(StableHlo.held (c : Thread nD τ) (Pipeline.ucRefs τ sig) (Gen.V7 m (outs1 m) c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := Pipeline.UD sig nD τ) (Lvl := ℕ) spec1 c (VR7 m c)
  hentry c := by
    rw [Pipeline.ownSems0_none]
    have he : (StableHlo.held (c : Thread nD τ) (Pipeline.ucRefs τ sig) (Gen.V7 m (outs1 m) c) : sProp 𝕄)
        ⊢ iprop((pdats m 1 c).arrays ((pdats m 1 c).arrAt · 0)
          ∗ Pipeline.unscopedRest (Ix := Unit) (Name := ℕ) (U := Pipeline.UD sig nD τ) (Lvl := ℕ) spec1 c (VR7 m c)) := entry1 m c
    iintro ⟨⟨Hub, Hp, HO⟩, -, -⟩
    ihave H := he $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hx : iprop((pdats m 1 c).arrays ((pdats m 1 c).arrAt · (Pipeline.pin (pcfgs (F := F)) adm 1).N)
          ∗ Pipeline.unscopedRest (Ix := Unit) (Name := ℕ) (U := Pipeline.UD sig nD τ) (Lvl := ℕ) spec1 c (VR7 m c))
        ⊢ (StableHlo.held (c : Thread nD τ) (Pipeline.ucRefs τ sig) (W8 m c) : sProp 𝕄) := exit1 m c
    iintro ⟨Ha, HO, HY, Hrest⟩
    imodintro
    isplitl [Ha Hrest]
    · iapply hx; isplitl [Ha] <;> iassumption
    isplitl [HY]; · iexact HY
    unfold Pipeline.Dat.owesAt Pipeline.owesWithin
    icases HO with ⟨%W, -, HO⟩; iexists W; iexact HO

end Cert.Kernel.Hand

end
-- ==== Proof.KiMainB.lean ====
/-
  The run of the whole program from the launch to the return: the host stretches and the two kernel regions composed
  in order, every weakly fair execution terminating with each unscoped buffer of each core at the last contents — the
  launch contents carried through the host operations, with the first region's output array at what its write-backs
  leave and the second's likewise.
-/
import proofs.«116991_j32590211842241_2_alg».proof.Proof.KiReg1B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What rides beside the buffers between any two items. -/
abbrev E : Fin 3 → Dev nD → sProp 𝕄 := fun _ c => R c

theorem hpre1 (c : Dev nD) :
    iprop(StableHlo.held (c : Thread nD τ) (Pipeline.ucRefs τ sig) (Gen.V7 m (outs m) c) ∗ E (F := F) 1 c) ⊢ (reg1 m).pre c := by
  rw [V7_outs m c]; exact .rfl

theorem hpost1 (c : Dev nD) :
    (reg1 m).post c ⊢ iprop(StableHlo.held (c : Thread nD τ) (Pipeline.ucRefs τ sig) (Gen.V8 m (outs m) c) ∗ E (F := F) 2 c) := by
  rw [V8_outs m c]; exact .rfl

set_option backward.isDefEq.respectTransparency.types false in
/-- THE RUN: every weakly fair execution of the program from memory `m` terminates, and every final memory holds each
    unscoped buffer of each core at the last contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = Gen.V8 m (outs m) c b) := by
  refine Pipeline.θ_run_regions_kit_dev (pcfgs (F := F)) adm (pdats m) () cellOf_inj embL defs₀ 𝒱₀ L lv m ρ main
    (Gen.segs m (outs m) 𝒱₀ L lv (E (F := F)) () (pdats m) (reg0 m) (reg1 m))
    (fun c Q => by
      rewrite [main_chain c, Seg.run_eq_chain,
        show (Gen.segs m (outs m) 𝒱₀ L lv (E (F := F)) () (pdats m) (reg0 m) (reg1 m) c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()) ] from rfl]
      exact .rfl)
    (fun c => by simp only [Gen.segs, Seg.pipes_host, Seg.pipes_region, Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ E (F := F) 0 c))
    (Tₙ := fun c => StableHlo.held (c : Thread nD τ) (Pipeline.ucRefs τ sig) (Gen.V8 m (outs m) c))
    (hch := fun c => ⟨.rfl, .rfl, .rfl, .rfl, .rfl, .rfl, .rfl, hpre1 m c,
      (hpost1 m c).trans (sep_mono .rfl (by iintro ⟨-, H⟩; iexact H))⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = Gen.V8 m (outs m) c b)
    (hfin := fun c s' => by
      iintro ⟨Hh, HSI⟩
      unfold StableHlo.held
      imodintro
      iapply (pointsTo_read_all (Pipeline.ucRefs τ sig) (fun b => (((c : Thread nD τ)).1, b)) (Gen.V8 m (outs m) c) s')
      isplitl [Hh] <;> iassumption)
    (hQ := fun _ h => h)

/-- An unscoped reference of the core is among those the run's last state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: the program runs to the end and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (Gen.V8_main_arg0 m (outs m) c),
     (h c _ (mem_uc main_arg1 (by decide))).trans (Gen.V8_main_arg1 m (outs m) c),
     (h c _ (mem_uc main_arg2 (by decide))).trans (Gen.V8_main_arg2 m (outs m) c),
     (h c _ (mem_uc main_arg3 (by decide))).trans (Gen.V8_main_arg3 m (outs m) c)⟩) (run_all m ρ)

/-- The result array ends at what region 1's write-backs leave. -/
theorem result_eq (c : Dev nD) : Gen.V8 m (outs m) c main_v52 = o8 m c :=
  (Function.update_self _ _ _).trans (outs_8 m c)

end Cert.Kernel.Hand

end
-- ==== Proof.Spec.lean ====
/-
  The two matrix products of the program as whole-array functions on the extended reals.

  `rowsTimes x w` is the product of a [16384, 128] array of rows with a [128, 128] matrix: entry (r, j) is the sum over
  k < 128 of x (r, k) · w (k, j). `gram h` is the product of a [16384, 128] array with its own transpose: entry (i, j)
  is the sum over k < 128 of h (i, k) · h (j, k). Both are plain finite sums; nothing here needs finiteness of the
  entries, because no sum is re-arranged across a product.
-/
import Idealize.ShloMosaic.Lib.ValueIdx
import Idealize.ShloMosaic.PureOps.Ideal

noncomputable section

open scoped BigOperators

namespace Cert.Spec

open Idealize.ShloMosaic Idealize.ShloMosaic.ValueIdx

/-- Rows times a square matrix, entry by entry. -/
def rowsTimes (x : (⟨2, ![16384, 128]⟩ : Shape).Idx → EReal) (w : (⟨2, ![128, 128]⟩ : Shape).Idx → EReal) :
    (⟨2, ![16384, 128]⟩ : Shape).Idx → EReal :=
  fun i => ∑ k : Fin 128, x (ix2 (i 0) k) * w (ix2 k (i 1))

theorem rowsTimes_ix2 (x : (⟨2, ![16384, 128]⟩ : Shape).Idx → EReal) (w : (⟨2, ![128, 128]⟩ : Shape).Idx → EReal)
    (r : Fin 16384) (j : Fin 128) : rowsTimes x w (ix2 r j) = ∑ k : Fin 128, x (ix2 r k) * w (ix2 k j) := rfl

/-- An array of rows times its own transpose, entry by entry. -/
def gram (h : (⟨2, ![16384, 128]⟩ : Shape).Idx → EReal) : (⟨2, ![16384, 16384]⟩ : Shape).Idx → EReal :=
  fun i => ∑ k : Fin 128, h (ix2 (i 0) k) * h (ix2 (i 1) k)

theorem gram_ix2 (h : (⟨2, ![16384, 128]⟩ : Shape).Idx → EReal) (i j : Fin 16384) :
    gram h (ix2 i j) = ∑ k : Fin 128, h (ix2 i k) * h (ix2 j k) := rfl

end Cert.Spec

end
-- ==== Proof.KiBlocks.lean ====
/-
  From blocks to the arrays: what the two pipelined regions leave in their output arrays.

  Region 0 runs over 8 points; point i multiplies rows 2048 i … 2048 i + 2047 of x by the whole matrix W and writes the
  [2048, 128] result back at the same rows of its output. Region 1 runs over 8 × 16 points; point (i, j) multiplies rows
  2048 i … of h by the transpose of rows 1024 j … of the same h and writes the [2048, 1024] tile back at rows 2048 i …,
  columns 1024 j … of its output. Given the two block products entry by entry (the hypotheses `hpay0`, `hpay1`), each
  block written back is the corresponding block of the whole-array product (`Cert.Spec.rowsTimes`, `Cert.Spec.gram`),
  because an input block is its array read at the rows its window's index map names; and the blocks written back cover
  the output array. So after each region its output array IS the whole-array product (`final0`, `final1`).
-/
import proofs.«116991_j32590211842241_2_alg».proof.Proof.KiBody
import proofs.«116991_j32590211842241_2_alg».proof.Proof.Spec
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-! # From blocks to the arrays

Each region's output window tiles its array: region 0's point `i` writes rows `2048 i … 2048 i + 2047` of the
[16384, 128] product, region 1's point `(i, j)` writes the [2048, 1024] tile at rows `2048 i …` and columns
`1024 j …` of the [16384, 16384] product. What a point writes back is the body's payload of its two input blocks;
an input block is its array read at the rows the window's index map names, so the payload's entry (p, q) is the
whole-array product's entry at the tile's offset plus (p, q). The tiles cover the array, so the array ends at the
whole-array product. -/

/-- The zero offsets of a whole-block rectangle. -/
theorem zeroOff : (![0, 0] : Fin 2 → Nat) = fun _ => 0 := funext fun a => by fin_cases a <;> rfl

/-! ## Region 0: x · W by row blocks -/

/-- The printed index maps of region 0 over its 8 points: the row window moves with the output, the matrix window
    stays at block (0, 0), and the output's block row stays below 8, its block column at 0. -/
theorem idxRel0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 7
    ∧ win0_2.index t (1 : Fin 2) = 0 :=
  (by decide +kernel : ∀ t : Fin grid0.N, _)

/-- Every block row of the output is some point's. -/
theorem idxOnto0 : ∀ (q0 : Fin 8), ∃ t : Fin cfg0.N, win0_2.index t = ![q0.val, 0] :=
  (by decide +kernel : ∀ (q0 : Fin 8), ∃ t : Fin grid0.N, win0_2.index t = ![q0.val, 0])

/-- One entry of a row block of x · W. If `x` is rows `2048 n …` of `X` and `w` is `W`, the block product's entry
    (p, q) is entry (2048 n + p, q) of the whole product. -/
theorem rowsTimes_block
    (hpay0 : ∀ (x : Vec Ideal S2048x128 .bf16) (w : Vec Ideal S128x128 .bf16) (p : Fin 2048) (q : Fin 128),
      k0_pay1 (F := Ideal) x w (ix2 p q) = ∑ k : Fin 128, x (ix2 p k) * w (ix2 k q))
    (X : (⟨2, ![16384, 128]⟩ : Shape).Idx → EReal) (W : (⟨2, ![128, 128]⟩ : Shape).Idx → EReal)
    (x : Vec Ideal S2048x128 .bf16) (w : Vec Ideal S128x128 .bf16) (n : Nat)
    (hx : ∀ (p : Fin 2048) (k : Fin 128) (i : (⟨2, ![16384, 128]⟩ : Shape).Idx),
      (i 0).val = n * 2048 + p.val → (i 1).val = k.val → x (ix2 p k) = X i)
    (hw : ∀ (k q : Fin 128), w (ix2 k q) = W (ix2 k q))
    (p : Fin 2048) (q : Fin 128) (i : (⟨2, ![16384, 128]⟩ : Shape).Idx)
    (hi0 : (i 0).val = n * 2048 + p.val) (hi1 : (i 1).val = q.val) :
    k0_pay1 (F := Ideal) x w (ix2 p q) = Cert.Spec.rowsTimes X W i := by
  obtain ⟨r, j, rfl⟩ : ∃ (r : Fin 16384) (j : Fin 128), i = ix2 r j := ⟨i 0, i 1, eq_ix2 i⟩
  obtain rfl : j = q := Fin.ext hi1
  rw [hpay0, Cert.Spec.rowsTimes_ix2]
  refine Finset.sum_congr rfl fun k _ => ?_
  rw [hx p k (ix2 r k) hi0 rfl, hw]

/-- What point `t` of region 0 writes back is block `t` of x · W. -/
theorem flushed0_eq
    (hpay0 : ∀ (x : Vec Ideal S2048x128 .bf16) (w : Vec Ideal S128x128 .bf16) (p : Fin 2048) (q : Fin 128),
      k0_pay1 (F := Ideal) x w (ix2 p q) = ∑ k : Fin 128, x (ix2 p k) * w (ix2 k q))
    (c : Dev nD) (t : Fin cfg0.N) :
    (dat0 (F := Ideal) V c).flushed 2 t
      = ((cfg0.win 2).blk t).view.read (Elt Ideal) (Cert.Spec.rowsTimes (V c main_v0) (V c main_v1)) := by
  show (cfg0.win 2).cut (grid0.coords t) ((dat0 V c).after 2 t) = _
  rw [after0_2]
  unfold out0_2
  rw [View.canon_unit_zero zeroOff]
  simp only [View.ld_unit_zero (S := S2048x128) zeroOff, View.ld_unit_zero (S := S128x128) zeroOff]
  obtain ⟨e0, e1, e2, e3, e4, e5⟩ := idxRel0 t
  funext j
  obtain ⟨p, q, rfl⟩ : ∃ (p : Fin 2048) (q : Fin 128), j = ix2 p q := ⟨j 0, j 1, eq_ix2 j⟩
  show k0_pay1 (F := Ideal) (iblk0 V c 0 t) (iblk0 V c 1 t) (ix2 p q)
    = Cert.Spec.rowsTimes (V c main_v0) (V c main_v1) (((cfg0.win 2).blk t).view.emb (ix2 p q))
  refine rowsTimes_block hpay0 (V c main_v0) (V c main_v1) (iblk0 V c 0 t) (iblk0 V c 1 t)
    (win0_2.index t (0 : Fin 2)) ?_ ?_ p q _ ?_ ?_
  · intro p' k i hi0 hi1
    show V c main_v0 (((cfg0.win 0).blk t).view.emb (ix2 p' k)) = V c main_v0 i
    congr 1
    funext a; apply Fin.ext
    match a with
    | ⟨0, _⟩ => show win0_0.index t (0 : Fin 2) * 2048 + 1 * p'.val = (i 0).val; omega
    | ⟨1, _⟩ => show win0_0.index t (1 : Fin 2) * 128 + 1 * k.val = (i 1).val; omega
  · intro k q'
    show V c main_v1 (((cfg0.win 1).blk t).view.emb (ix2 k q')) = V c main_v1 (ix2 k q')
    congr 1
    funext a; apply Fin.ext
    match a with
    | ⟨0, _⟩ => show win0_1.index t (0 : Fin 2) * 128 + 1 * k.val = k.val; omega
    | ⟨1, _⟩ => show win0_1.index t (1 : Fin 2) * 128 + 1 * q'.val = q'.val; omega
  · show win0_2.index t (0 : Fin 2) * 2048 + 1 * p.val = win0_2.index t (0 : Fin 2) * 2048 + p.val; omega
  · show win0_2.index t (1 : Fin 2) * 128 + 1 * q.val = q.val; omega

/-- An index of the output array is in point `t`'s block iff each coordinate is in the block's range on its axis. -/
theorem mem_blk0 (t : Fin cfg0.N) (i : S16384x128.Idx) :
    i ∈ ((cfg0.win 2).blk t).view.set ↔ ∀ a : Fin 2, win0_2.index t a * S2048x128.size a ≤ (i a).val
      ∧ (i a).val < win0_2.index t a * S2048x128.size a + S2048x128.size a := by
  show i ∈ ((View.whole main_v2).slice (win0_2.rect t)).set ↔ _
  rw [View.set_slice_whole, Rect.mem_set_unit]
  exact Iff.rfl

/-- The row blocks cover the output array: row `r` is in the block of the point whose block row is `r / 2048`. -/
theorem cover0 (i : S16384x128.Idx) :
    ∃ t : Fin cfg0.N, (cfg0.win 2).flush t = true ∧ i ∈ ((cfg0.win 2).blk t).view.set := by
  have hi0 : (i 0).val < 16384 := (i 0).isLt
  have hi1 : (i 1).val < 128 := (i 1).isLt
  obtain ⟨t, ht⟩ := idxOnto0 ⟨(i 0).val / 2048, by omega⟩
  have q0 : win0_2.index t (0 : Fin 2) = (i 0).val / 2048 := congrFun ht 0
  have q1 : win0_2.index t (1 : Fin 2) = 0 := congrFun ht 1
  refine ⟨t, flush0_2 t, ?_⟩
  rw [mem_blk0]
  intro a
  match a with
  | ⟨0, _⟩ =>
    show win0_2.index t (0 : Fin 2) * 2048 ≤ (i 0).val ∧ (i 0).val < win0_2.index t (0 : Fin 2) * 2048 + 2048
    omega
  | ⟨1, _⟩ =>
    show win0_2.index t (1 : Fin 2) * 128 ≤ (i 1).val ∧ (i 1).val < win0_2.index t (1 : Fin 2) * 128 + 128
    omega

/-- After region 0 its output array holds x · W. -/
theorem final0
    (hpay0 : ∀ (x : Vec Ideal S2048x128 .bf16) (w : Vec Ideal S128x128 .bf16) (p : Fin 2048) (q : Fin 128),
      k0_pay1 (F := Ideal) x w (ix2 p q) = ∑ k : Fin 128, x (ix2 p k) * w (ix2 k q))
    (c : Dev nD) :
    (dat0 (F := Ideal) V c).arrAt 2 cfg0.N = Cert.Spec.rowsTimes (V c main_v0) (V c main_v1) :=
  (dat0 (F := Ideal) V c).arrAt_eq_of_cover 2 (Cert.Spec.rowsTimes (V c main_v0) (V c main_v1))
    (fun t _ => flushed0_eq V hpay0 c t) cover0

/-! ## Region 1: h · hᵀ by tiles -/

/-- The printed index maps of region 1 over its 128 points: the row window's block row is the output's, the
    column window's block row is the output's block column, both at block column 0; the output's block row stays
    below 8 and its block column below 16. -/
theorem idxRel1 : ∀ t : Fin cfg1.N, win1_0.index t (0 : Fin 2) = win1_2.index t (0 : Fin 2)
    ∧ win1_0.index t (1 : Fin 2) = 0
    ∧ win1_1.index t (0 : Fin 2) = win1_2.index t (1 : Fin 2)
    ∧ win1_1.index t (1 : Fin 2) = 0
    ∧ win1_2.index t (0 : Fin 2) ≤ 7
    ∧ win1_2.index t (1 : Fin 2) ≤ 15 :=
  (by decide +kernel : ∀ t : Fin grid1.N, _)

/-- Every tile of the output is some point's. -/
theorem idxOnto1 : ∀ (q0 : Fin 8) (q1 : Fin 16), ∃ t : Fin cfg1.N, win1_2.index t = ![q0.val, q1.val] :=
  (by decide +kernel : ∀ (q0 : Fin 8) (q1 : Fin 16), ∃ t : Fin grid1.N, win1_2.index t = ![q0.val, q1.val])

/-- One entry of a tile of h · hᵀ. If `a` is rows `2048 n0 …` of `H` and `b` is rows `1024 n1 …` of `H`, the tile's
    entry (p, q) is entry (2048 n0 + p, 1024 n1 + q) of the whole product. -/
theorem gram_block
    (hpay1 : ∀ (a : Vec Ideal S2048x128 .bf16) (b : Vec Ideal S1024x128 .bf16) (p : Fin 2048) (q : Fin 1024),
      k1_pay1 (F := Ideal) a b (ix2 p q) = ∑ k : Fin 128, a (ix2 p k) * b (ix2 q k))
    (H : (⟨2, ![16384, 128]⟩ : Shape).Idx → EReal)
    (a : Vec Ideal S2048x128 .bf16) (b : Vec Ideal S1024x128 .bf16) (n0 n1 : Nat)
    (ha : ∀ (p : Fin 2048) (k : Fin 128) (i : (⟨2, ![16384, 128]⟩ : Shape).Idx),
      (i 0).val = n0 * 2048 + p.val → (i 1).val = k.val → a (ix2 p k) = H i)
    (hb : ∀ (q : Fin 1024) (k : Fin 128) (i : (⟨2, ![16384, 128]⟩ : Shape).Idx),
      (i 0).val = n1 * 1024 + q.val → (i 1).val = k.val → b (ix2 q k) = H i)
    (p : Fin 2048) (q : Fin 1024) (i : (⟨2, ![16384, 16384]⟩ : Shape).Idx)
    (hi0 : (i 0).val = n0 * 2048 + p.val) (hi1 : (i 1).val = n1 * 1024 + q.val) :
    k1_pay1 (F := Ideal) a b (ix2 p q) = Cert.Spec.gram H i := by
  obtain ⟨r, s, rfl⟩ : ∃ (r s : Fin 16384), i = ix2 r s := ⟨i 0, i 1, eq_ix2 i⟩
  rw [hpay1, Cert.Spec.gram_ix2]
  refine Finset.sum_congr rfl fun k _ => ?_
  rw [ha p k (ix2 r k) hi0 rfl, hb q k (ix2 s k) hi1 rfl]

/-- What point `t` of region 1 writes back is tile `t` of h · hᵀ. -/
theorem flushed1_eq
    (hpay1 : ∀ (a : Vec Ideal S2048x128 .bf16) (b : Vec Ideal S1024x128 .bf16) (p : Fin 2048) (q : Fin 1024),
      k1_pay1 (F := Ideal) a b (ix2 p q) = ∑ k : Fin 128, a (ix2 p k) * b (ix2 q k))
    (c : Dev nD) (t : Fin cfg1.N) :
    (dat1 (F := Ideal) V c).flushed 2 t
      = ((cfg1.win 2).blk t).view.read (Elt Ideal) (Cert.Spec.gram (V c main_v51)) := by
  show (cfg1.win 2).cut (grid1.coords t) ((dat1 V c).after 2 t) = _
  rw [after1_2]
  unfold out1_2
  rw [View.canon_unit_zero zeroOff]
  simp only [View.ld_unit_zero (S := S2048x128) zeroOff, View.ld_unit_zero (S := S1024x128) zeroOff]
  obtain ⟨e0, e1, e2, e3, e4, e5⟩ := idxRel1 t
  funext j
  obtain ⟨p, q, rfl⟩ : ∃ (p : Fin 2048) (q : Fin 1024), j = ix2 p q := ⟨j 0, j 1, eq_ix2 j⟩
  show k1_pay1 (F := Ideal) (iblk1 V c 0 t) (iblk1 V c 1 t) (ix2 p q)
    = Cert.Spec.gram (V c main_v51) (((cfg1.win 2).blk t).view.emb (ix2 p q))
  refine gram_block hpay1 (V c main_v51) (iblk1 V c 0 t) (iblk1 V c 1 t)
    (win1_2.index t (0 : Fin 2)) (win1_2.index t (1 : Fin 2)) ?_ ?_ p q _ ?_ ?_
  · intro p' k i hi0 hi1
    show V c main_v51 (((cfg1.win 0).blk t).view.emb (ix2 p' k)) = V c main_v51 i
    congr 1
    funext a; apply Fin.ext
    match a with
    | ⟨0, _⟩ => show win1_0.index t (0 : Fin 2) * 2048 + 1 * p'.val = (i 0).val; omega
    | ⟨1, _⟩ => show win1_0.index t (1 : Fin 2) * 128 + 1 * k.val = (i 1).val; omega
  · intro q' k i hi0 hi1
    show V c main_v51 (((cfg1.win 1).blk t).view.emb (ix2 q' k)) = V c main_v51 i
    congr 1
    funext a; apply Fin.ext
    match a with
    | ⟨0, _⟩ => show win1_1.index t (0 : Fin 2) * 1024 + 1 * q'.val = (i 0).val; omega
    | ⟨1, _⟩ => show win1_1.index t (1 : Fin 2) * 128 + 1 * k.val = (i 1).val; omega
  · show win1_2.index t (0 : Fin 2) * 2048 + 1 * p.val = win1_2.index t (0 : Fin 2) * 2048 + p.val; omega
  · show win1_2.index t (1 : Fin 2) * 1024 + 1 * q.val = win1_2.index t (1 : Fin 2) * 1024 + q.val; omega

/-- An index of the output array is in point `t`'s tile iff each coordinate is in the tile's range on its axis. -/
theorem mem_blk1 (t : Fin cfg1.N) (i : S16384x16384.Idx) :
    i ∈ ((cfg1.win 2).blk t).view.set ↔ ∀ a : Fin 2, win1_2.index t a * S2048x1024.size a ≤ (i a).val
      ∧ (i a).val < win1_2.index t a * S2048x1024.size a + S2048x1024.size a := by
  show i ∈ ((View.whole main_v52).slice (win1_2.rect t)).set ↔ _
  rw [View.set_slice_whole, Rect.mem_set_unit]
  exact Iff.rfl

/-- The tiles cover the output array: entry (r, s) is in the tile of the point at block row `r / 2048` and block
    column `s / 1024`. -/
theorem cover1 (i : S16384x16384.Idx) :
    ∃ t : Fin cfg1.N, (cfg1.win 2).flush t = true ∧ i ∈ ((cfg1.win 2).blk t).view.set := by
  have hi0 : (i 0).val < 16384 := (i 0).isLt
  have hi1 : (i 1).val < 16384 := (i 1).isLt
  obtain ⟨t, ht⟩ := idxOnto1 ⟨(i 0).val / 2048, by omega⟩ ⟨(i 1).val / 1024, by omega⟩
  have q0 : win1_2.index t (0 : Fin 2) = (i 0).val / 2048 := congrFun ht 0
  have q1 : win1_2.index t (1 : Fin 2) = (i 1).val / 1024 := congrFun ht 1
  refine ⟨t, flush1_2 t, ?_⟩
  rw [mem_blk1]
  intro a
  match a with
  | ⟨0, _⟩ =>
    show win1_2.index t (0 : Fin 2) * 2048 ≤ (i 0).val ∧ (i 0).val < win1_2.index t (0 : Fin 2) * 2048 + 2048
    omega
  | ⟨1, _⟩ =>
    show win1_2.index t (1 : Fin 2) * 1024 ≤ (i 1).val ∧ (i 1).val < win1_2.index t (1 : Fin 2) * 1024 + 1024
    omega

/-- After region 1 its output array holds h · hᵀ. -/
theorem final1
    (hpay1 : ∀ (a : Vec Ideal S2048x128 .bf16) (b : Vec Ideal S1024x128 .bf16) (p : Fin 2048) (q : Fin 1024),
      k1_pay1 (F := Ideal) a b (ix2 p q) = ∑ k : Fin 128, a (ix2 p k) * b (ix2 q k))
    (c : Dev nD) :
    (dat1 (F := Ideal) V c).arrAt 2 cfg1.N = Cert.Spec.gram (V c main_v51) :=
  (dat1 (F := Ideal) V c).arrAt_eq_of_cover 2 (Cert.Spec.gram (V c main_v51))
    (fun t _ => flushed1_eq V hpay1 c t) cover1

end Cert.KernelIdeal.Hand

end
-- ==== Proof.MidChain.lean ====
/-
  The host operations between the two products, carried as one function.

  Between its two matrix products the program applies, on the host, the same operations as the reference does to the
  first product L, the edge list and the bias: the two rows of the edge list each extended by one self loop per node,
  the nodes' degrees as a scatter-add of ones over the targets, their inverse square roots where the degree is positive
  (zero elsewhere), one weight per edge (the product of its two ends' values), the rows of L gathered at the sources,
  scaled by the weights and scatter-added at the targets, the bias added along every row, and the result clamped
  below at zero. That whole chain is named `hid` here, once over the program's dimension records and once over the
  reference's, and never opened: the two are one function (`hid_eq`: the shapes are the same literals, the records have
  the same axes), the reference's result is the product of `hid` of x · W with its own transpose (`ref_res`), and the
  program's second product reads the bf16 rounding of `hid` of what its first product left (`V7_main_v51`), as its
  first product reads the bf16 roundings of its two arguments (`V1_main_v0`, `V1_main_v1`).
-/
import proofs.«116991_j32590211842241_2_alg».proof.Proof.Gen.KernelIdeal.Regions
import proofs.«116991_j32590211842241_2_alg».proof.Proof.RefRun
import Idealize.ShloMosaic.Lib.StableHlo.Run

noncomputable section

namespace Cert.KernelIdeal.Mid

open Cert.KernelIdeal Cert.KernelIdeal.Gen Idealize.ShloMosaic Idealize.ShloMosaic.TcCoe Idealize.SL.Sem Idealize.ShloMosaic.StableHlo

variable {F : FTy → Type} [FloatOps F]

set_option maxRecDepth 8192 in
/-- The hidden layer from the first product L, the edge list and the bias: the normalised neighbourhood sum of L's rows
    (degrees by a scatter-add of ones over the edges' targets with a self loop per node, their inverse square roots where
    positive, one weight per edge the product of its two ends', the weighted rows of L gathered at the sources and
    scatter-added at the targets), plus the bias along every row, clamped below at zero. -/
def hid (L : FVec F S16384x128 .f32) (ei : (⟨S2x524288, .i32⟩ : BufTy).Contents (Elt F)) (b : FVec F S128 .f32) :
    FVec F S16384x128 .f32 :=
  maximumf (addf (Host.scatterAdd scatter_S16384x128_S540672x1_S540672x128_1_0_0_1 (broadcastInDim S16384x128 ![] bcast_S_S16384x128 (constant S_ .f32 0x00000000#32)) (broadcastInDim S540672x1 ![0] bcast_S540672_S540672x1_0 (concatenate S540672 0 [⟨S524288, (shapeCast _ (extractStridedSlice S1x524288 ![1, 0] ei slices_S2x524288_S1x524288_1_0) shapeCasts_S1x524288_S524288)⟩, ⟨S16384, (iotaInDim S16384 32 0)⟩] concatenates_S524288_S16384_S540672_d0)) (mulf (broadcastInDim S540672x128 ![0, 1] bcast_S540672x1_S540672x128_0_1 (broadcastInDim S540672x1 ![0] bcast_S540672_S540672x1_0 (mulf (Host.gather gather_S16384_S540672x1_S540672_n_0_n_n_0_1_1 (select (cmpf (F := F) .ogt (Host.scatterAdd scatter_S16384_S540672x1_S540672_n_0_0_1 (broadcastInDim S16384 ![] bcast_S_S16384 (constant S_ .f32 0x00000000#32)) (broadcastInDim S540672x1 ![0] bcast_S540672_S540672x1_0 (concatenate S540672 0 [⟨S524288, (shapeCast _ (extractStridedSlice S1x524288 ![1, 0] ei slices_S2x524288_S1x524288_1_0) shapeCasts_S1x524288_S524288)⟩, ⟨S16384, (iotaInDim S16384 32 0)⟩] concatenates_S524288_S16384_S540672_d0)) (broadcastInDim S540672 ![] bcast_S_S540672 (constant S_ .f32 0x3F800000#32))) (broadcastInDim S16384 ![] bcast_S_S16384 (constant S_ .f32 0x00000000#32))) (Host.rsqrt (Host.scatterAdd scatter_S16384_S540672x1_S540672_n_0_0_1 (broadcastInDim S16384 ![] bcast_S_S16384 (constant S_ .f32 0x00000000#32)) (broadcastInDim S540672x1 ![0] bcast_S540672_S540672x1_0 (concatenate S540672 0 [⟨S524288, (shapeCast _ (extractStridedSlice S1x524288 ![1, 0] ei slices_S2x524288_S1x524288_1_0) shapeCasts_S1x524288_S524288)⟩, ⟨S16384, (iotaInDim S16384 32 0)⟩] concatenates_S524288_S16384_S540672_d0)) (broadcastInDim S540672 ![] bcast_S_S540672 (constant S_ .f32 0x3F800000#32)))) (broadcastInDim S16384 ![] bcast_S_S16384 (constant S_ .f32 0x00000000#32))) (broadcastInDim S540672x1 ![0] bcast_S540672_S540672x1_0 (select (cmpi .slt (concatenate S540672 0 [⟨S524288, (shapeCast _ (extractStridedSlice S1x524288 ![0, 0] ei slices_S2x524288_S1x524288_0_0) shapeCasts_S1x524288_S524288)⟩, ⟨S16384, (iotaInDim S16384 32 0)⟩] concatenates_S524288_S16384_S540672_d0) (broadcastInDim S540672 ![] bcast_S_S540672 (constantI S_ 32 0#32))) (addi (concatenate S540672 0 [⟨S524288, (shapeCast _ (extractStridedSlice S1x524288 ![0, 0] ei slices_S2x524288_S1x524288_0_0) shapeCasts_S1x524288_S524288)⟩, ⟨S16384, (iotaInDim S16384 32 0)⟩] concatenates_S524288_S16384_S540672_d0) (broadcastInDim S540672 ![] bcast_S_S540672 (constantI S_ 32 16384#32))) (concatenate S540672 0 [⟨S524288, (shapeCast _ (extractStridedSlice S1x524288 ![0, 0] ei slices_S2x524288_S1x524288_0_0) shapeCasts_S1x524288_S524288)⟩, ⟨S16384, (iotaInDim S16384 32 0)⟩] concatenates_S524288_S16384_S540672_d0)))) (Host.gather gather_S16384_S540672x1_S540672_n_0_n_n_0_1_1 (select (cmpf (F := F) .ogt (Host.scatterAdd scatter_S16384_S540672x1_S540672_n_0_0_1 (broadcastInDim S16384 ![] bcast_S_S16384 (constant S_ .f32 0x00000000#32)) (broadcastInDim S540672x1 ![0] bcast_S540672_S540672x1_0 (concatenate S540672 0 [⟨S524288, (shapeCast _ (extractStridedSlice S1x524288 ![1, 0] ei slices_S2x524288_S1x524288_1_0) shapeCasts_S1x524288_S524288)⟩, ⟨S16384, (iotaInDim S16384 32 0)⟩] concatenates_S524288_S16384_S540672_d0)) (broadcastInDim S540672 ![] bcast_S_S540672 (constant S_ .f32 0x3F800000#32))) (broadcastInDim S16384 ![] bcast_S_S16384 (constant S_ .f32 0x00000000#32))) (Host.rsqrt (Host.scatterAdd scatter_S16384_S540672x1_S540672_n_0_0_1 (broadcastInDim S16384 ![] bcast_S_S16384 (constant S_ .f32 0x00000000#32)) (broadcastInDim S540672x1 ![0] bcast_S540672_S540672x1_0 (concatenate S540672 0 [⟨S524288, (shapeCast _ (extractStridedSlice S1x524288 ![1, 0] ei slices_S2x524288_S1x524288_1_0) shapeCasts_S1x524288_S524288)⟩, ⟨S16384, (iotaInDim S16384 32 0)⟩] concatenates_S524288_S16384_S540672_d0)) (broadcastInDim S540672 ![] bcast_S_S540672 (constant S_ .f32 0x3F800000#32)))) (broadcastInDim S16384 ![] bcast_S_S16384 (constant S_ .f32 0x00000000#32))) (broadcastInDim S540672x1 ![0] bcast_S540672_S540672x1_0 (select (cmpi .slt (concatenate S540672 0 [⟨S524288, (shapeCast _ (extractStridedSlice S1x524288 ![1, 0] ei slices_S2x524288_S1x524288_1_0) shapeCasts_S1x524288_S524288)⟩, ⟨S16384, (iotaInDim S16384 32 0)⟩] concatenates_S524288_S16384_S540672_d0) (broadcastInDim S540672 ![] bcast_S_S540672 (constantI S_ 32 0#32))) (addi (concatenate S540672 0 [⟨S524288, (shapeCast _ (extractStridedSlice S1x524288 ![1, 0] ei slices_S2x524288_S1x524288_1_0) shapeCasts_S1x524288_S524288)⟩, ⟨S16384, (iotaInDim S16384 32 0)⟩] concatenates_S524288_S16384_S540672_d0) (broadcastInDim S540672 ![] bcast_S_S540672 (constantI S_ 32 16384#32))) (concatenate S540672 0 [⟨S524288, (shapeCast _ (extractStridedSlice S1x524288 ![1, 0] ei slices_S2x524288_S1x524288_1_0) shapeCasts_S1x524288_S524288)⟩, ⟨S16384, (iotaInDim S16384 32 0)⟩] concatenates_S524288_S16384_S540672_d0))))))) (Host.gather gather_S16384x128_S540672x1_S540672x128_1_0_n_n_0_1_1128 L (broadcastInDim S540672x1 ![0] bcast_S540672_S540672x1_0 (select (cmpi .slt (concatenate S540672 0 [⟨S524288, (shapeCast _ (extractStridedSlice S1x524288 ![0, 0] ei slices_S2x524288_S1x524288_0_0) shapeCasts_S1x524288_S524288)⟩, ⟨S16384, (iotaInDim S16384 32 0)⟩] concatenates_S524288_S16384_S540672_d0) (broadcastInDim S540672 ![] bcast_S_S540672 (constantI S_ 32 0#32))) (addi (concatenate S540672 0 [⟨S524288, (shapeCast _ (extractStridedSlice S1x524288 ![0, 0] ei slices_S2x524288_S1x524288_0_0) shapeCasts_S1x524288_S524288)⟩, ⟨S16384, (iotaInDim S16384 32 0)⟩] concatenates_S524288_S16384_S540672_d0) (broadcastInDim S540672 ![] bcast_S_S540672 (constantI S_ 32 16384#32))) (concatenate S540672 0 [⟨S524288, (shapeCast _ (extractStridedSlice S1x524288 ![0, 0] ei slices_S2x524288_S1x524288_0_0) shapeCasts_S1x524288_S524288)⟩, ⟨S16384, (iotaInDim S16384 32 0)⟩] concatenates_S524288_S16384_S540672_d0)))))) (broadcastInDim S16384x128 ![0, 1] bcast_S1x128_S16384x128_0_1 (broadcastInDim S1x128 ![1] bcast_S128_S1x128_1 b))) (broadcastInDim S16384x128 ![] bcast_S_S16384x128 (constant S_ .f32 0x00000000#32))

end Cert.KernelIdeal.Mid

namespace Cert.ReferenceIdeal.Mid

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- The reference's hidden layer from the first product L, the edge list and the bias: the same operations, over the
    reference's own dimension records. -/
def hid (L : FVec F S16384x128 .f32) (ei : (⟨S2x524288, .i32⟩ : BufTy).Contents (Elt F)) (b : FVec F S128 .f32) :
    FVec F S16384x128 .f32 :=
  maximumf (addf (Host.scatterAdd scatter_S16384x128_S540672x1_S540672x128_1_0_0_1 (broadcastInDim S16384x128 ![] bcast_S_S16384x128 (constant S_ .f32 0x00000000#32)) (broadcastInDim S540672x1 ![0] bcast_S540672_S540672x1_0 (concatenate S540672 0 [⟨S524288, (shapeCast _ (extractStridedSlice S1x524288 ![1, 0] ei slices_S2x524288_S1x524288_1_0) shapeCasts_S1x524288_S524288)⟩, ⟨S16384, (iotaInDim S16384 32 0)⟩] concatenates_S524288_S16384_S540672_d0)) (mulf (broadcastInDim S540672x128 ![0, 1] bcast_S540672x1_S540672x128_0_1 (broadcastInDim S540672x1 ![0] bcast_S540672_S540672x1_0 (mulf (Host.gather gather_S16384_S540672x1_S540672_n_0_n_n_0_1_1 (select (cmpf (F := F) .ogt (Host.scatterAdd scatter_S16384_S540672x1_S540672_n_0_0_1 (broadcastInDim S16384 ![] bcast_S_S16384 (constant S_ .f32 0x00000000#32)) (broadcastInDim S540672x1 ![0] bcast_S540672_S540672x1_0 (concatenate S540672 0 [⟨S524288, (shapeCast _ (extractStridedSlice S1x524288 ![1, 0] ei slices_S2x524288_S1x524288_1_0) shapeCasts_S1x524288_S524288)⟩, ⟨S16384, (iotaInDim S16384 32 0)⟩] concatenates_S524288_S16384_S540672_d0)) (broadcastInDim S540672 ![] bcast_S_S540672 (constant S_ .f32 0x3F800000#32))) (broadcastInDim S16384 ![] bcast_S_S16384 (constant S_ .f32 0x00000000#32))) (Host.rsqrt (Host.scatterAdd scatter_S16384_S540672x1_S540672_n_0_0_1 (broadcastInDim S16384 ![] bcast_S_S16384 (constant S_ .f32 0x00000000#32)) (broadcastInDim S540672x1 ![0] bcast_S540672_S540672x1_0 (concatenate S540672 0 [⟨S524288, (shapeCast _ (extractStridedSlice S1x524288 ![1, 0] ei slices_S2x524288_S1x524288_1_0) shapeCasts_S1x524288_S524288)⟩, ⟨S16384, (iotaInDim S16384 32 0)⟩] concatenates_S524288_S16384_S540672_d0)) (broadcastInDim S540672 ![] bcast_S_S540672 (constant S_ .f32 0x3F800000#32)))) (broadcastInDim S16384 ![] bcast_S_S16384 (constant S_ .f32 0x00000000#32))) (broadcastInDim S540672x1 ![0] bcast_S540672_S540672x1_0 (select (cmpi .slt (concatenate S540672 0 [⟨S524288, (shapeCast _ (extractStridedSlice S1x524288 ![0, 0] ei slices_S2x524288_S1x524288_0_0) shapeCasts_S1x524288_S524288)⟩, ⟨S16384, (iotaInDim S16384 32 0)⟩] concatenates_S524288_S16384_S540672_d0) (broadcastInDim S540672 ![] bcast_S_S540672 (constantI S_ 32 0#32))) (addi (concatenate S540672 0 [⟨S524288, (shapeCast _ (extractStridedSlice S1x524288 ![0, 0] ei slices_S2x524288_S1x524288_0_0) shapeCasts_S1x524288_S524288)⟩, ⟨S16384, (iotaInDim S16384 32 0)⟩] concatenates_S524288_S16384_S540672_d0) (broadcastInDim S540672 ![] bcast_S_S540672 (constantI S_ 32 16384#32))) (concatenate S540672 0 [⟨S524288, (shapeCast _ (extractStridedSlice S1x524288 ![0, 0] ei slices_S2x524288_S1x524288_0_0) shapeCasts_S1x524288_S524288)⟩, ⟨S16384, (iotaInDim S16384 32 0)⟩] concatenates_S524288_S16384_S540672_d0)))) (Host.gather gather_S16384_S540672x1_S540672_n_0_n_n_0_1_1 (select (cmpf (F := F) .ogt (Host.scatterAdd scatter_S16384_S540672x1_S540672_n_0_0_1 (broadcastInDim S16384 ![] bcast_S_S16384 (constant S_ .f32 0x00000000#32)) (broadcastInDim S540672x1 ![0] bcast_S540672_S540672x1_0 (concatenate S540672 0 [⟨S524288, (shapeCast _ (extractStridedSlice S1x524288 ![1, 0] ei slices_S2x524288_S1x524288_1_0) shapeCasts_S1x524288_S524288)⟩, ⟨S16384, (iotaInDim S16384 32 0)⟩] concatenates_S524288_S16384_S540672_d0)) (broadcastInDim S540672 ![] bcast_S_S540672 (constant S_ .f32 0x3F800000#32))) (broadcastInDim S16384 ![] bcast_S_S16384 (constant S_ .f32 0x00000000#32))) (Host.rsqrt (Host.scatterAdd scatter_S16384_S540672x1_S540672_n_0_0_1 (broadcastInDim S16384 ![] bcast_S_S16384 (constant S_ .f32 0x00000000#32)) (broadcastInDim S540672x1 ![0] bcast_S540672_S540672x1_0 (concatenate S540672 0 [⟨S524288, (shapeCast _ (extractStridedSlice S1x524288 ![1, 0] ei slices_S2x524288_S1x524288_1_0) shapeCasts_S1x524288_S524288)⟩, ⟨S16384, (iotaInDim S16384 32 0)⟩] concatenates_S524288_S16384_S540672_d0)) (broadcastInDim S540672 ![] bcast_S_S540672 (constant S_ .f32 0x3F800000#32)))) (broadcastInDim S16384 ![] bcast_S_S16384 (constant S_ .f32 0x00000000#32))) (broadcastInDim S540672x1 ![0] bcast_S540672_S540672x1_0 (select (cmpi .slt (concatenate S540672 0 [⟨S524288, (shapeCast _ (extractStridedSlice S1x524288 ![1, 0] ei slices_S2x524288_S1x524288_1_0) shapeCasts_S1x524288_S524288)⟩, ⟨S16384, (iotaInDim S16384 32 0)⟩] concatenates_S524288_S16384_S540672_d0) (broadcastInDim S540672 ![] bcast_S_S540672 (constantI S_ 32 0#32))) (addi (concatenate S540672 0 [⟨S524288, (shapeCast _ (extractStridedSlice S1x524288 ![1, 0] ei slices_S2x524288_S1x524288_1_0) shapeCasts_S1x524288_S524288)⟩, ⟨S16384, (iotaInDim S16384 32 0)⟩] concatenates_S524288_S16384_S540672_d0) (broadcastInDim S540672 ![] bcast_S_S540672 (constantI S_ 32 16384#32))) (concatenate S540672 0 [⟨S524288, (shapeCast _ (extractStridedSlice S1x524288 ![1, 0] ei slices_S2x524288_S1x524288_1_0) shapeCasts_S1x524288_S524288)⟩, ⟨S16384, (iotaInDim S16384 32 0)⟩] concatenates_S524288_S16384_S540672_d0))))))) (Host.gather gather_S16384x128_S540672x1_S540672x128_1_0_n_n_0_1_1128 L (broadcastInDim S540672x1 ![0] bcast_S540672_S540672x1_0 (select (cmpi .slt (concatenate S540672 0 [⟨S524288, (shapeCast _ (extractStridedSlice S1x524288 ![0, 0] ei slices_S2x524288_S1x524288_0_0) shapeCasts_S1x524288_S524288)⟩, ⟨S16384, (iotaInDim S16384 32 0)⟩] concatenates_S524288_S16384_S540672_d0) (broadcastInDim S540672 ![] bcast_S_S540672 (constantI S_ 32 0#32))) (addi (concatenate S540672 0 [⟨S524288, (shapeCast _ (extractStridedSlice S1x524288 ![0, 0] ei slices_S2x524288_S1x524288_0_0) shapeCasts_S1x524288_S524288)⟩, ⟨S16384, (iotaInDim S16384 32 0)⟩] concatenates_S524288_S16384_S540672_d0) (broadcastInDim S540672 ![] bcast_S_S540672 (constantI S_ 32 16384#32))) (concatenate S540672 0 [⟨S524288, (shapeCast _ (extractStridedSlice S1x524288 ![0, 0] ei slices_S2x524288_S1x524288_0_0) shapeCasts_S1x524288_S524288)⟩, ⟨S16384, (iotaInDim S16384 32 0)⟩] concatenates_S524288_S16384_S540672_d0)))))) (broadcastInDim S16384x128 ![0, 1] bcast_S1x128_S16384x128_0_1 (broadcastInDim S1x128 ![1] bcast_S128_S1x128_1 b))) (broadcastInDim S16384x128 ![] bcast_S_S16384x128 (constant S_ .f32 0x00000000#32))

set_option maxRecDepth 8192 in
/-- The reference's result is the hidden layer of x · W times its own transpose. -/
theorem ref_res (m : (ℓ : Loc nD τ sig) → Buf (Elt F) ℓ) (c : Dev nD) :
    Cert.ReferenceIdeal.ValueP.res_main_v50 (F := F) m c
      = Host.dotGeneral dot_S16384x128_S128x16384_S16384x16384_1_0_0_1_n_n none
          (hid (Host.dotGeneral dot_S16384x128_S128x128_S16384x128_1_0_0_1_n_n none (m ((c.tc : Thread nD τ).loc main_arg0)) (m ((c.tc : Thread nD τ).loc main_arg2)))
            (m ((c.tc : Thread nD τ).loc main_arg1)) (m ((c.tc : Thread nD τ).loc main_arg3)))
          (transpose S128x16384 [1, 0]
            (hid (Host.dotGeneral dot_S16384x128_S128x128_S16384x128_1_0_0_1_n_n none (m ((c.tc : Thread nD τ).loc main_arg0)) (m ((c.tc : Thread nD τ).loc main_arg2)))
              (m ((c.tc : Thread nD τ).loc main_arg1)) (m ((c.tc : Thread nD τ).loc main_arg3)))
            transposes_S16384x128_S128x16384_1_0) := by
  unfold Cert.ReferenceIdeal.ValueP.res_main_v50 hid
  rfl

end Cert.ReferenceIdeal.Mid

namespace Cert.KernelIdeal.Mid

open Idealize.ShloMosaic

set_option maxRecDepth 8192 in
/-- The two spellings of the hidden layer are one function: their shapes are the same literals and their dimension
    records have the same axes. -/
theorem hid_eq {F : FTy → Type} [FloatOps F] (L : FVec F Cert.KernelIdeal.S16384x128 .f32)
    (ei : (⟨Cert.KernelIdeal.S2x524288, .i32⟩ : BufTy).Contents (Elt F)) (b : FVec F Cert.KernelIdeal.S128 .f32) :
    Cert.KernelIdeal.Mid.hid L ei b = Cert.ReferenceIdeal.Mid.hid L ei b := by
  unfold Cert.KernelIdeal.Mid.hid Cert.ReferenceIdeal.Mid.hid
  rfl

end Cert.KernelIdeal.Mid

namespace Cert.KernelIdeal.Mid

open Cert.KernelIdeal Cert.KernelIdeal.Gen Idealize.ShloMosaic Idealize.ShloMosaic.TcCoe Idealize.SL.Sem Idealize.ShloMosaic.StableHlo

variable {F : FTy → Type} [FloatOps F]

/-- A valuation changed at one reference, read at that reference. -/
theorem update_devRef_self {y : Ref sig .tc} (V : Valuation τ sig (Elt F)) (v : (Proc.devRef (τ := τ) .tc y).ty.Contents (Elt F)) :
    Function.update V (no_index (Proc.devRef .tc y)) v (no_index (Proc.devRef .tc y)) = v := Function.update_self ..

/-- A valuation changed at one reference, read at another. -/
theorem update_devRef_ne {y r : Ref sig .tc} (V : Valuation τ sig (Elt F)) (v : (Proc.devRef (τ := τ) .tc y).ty.Contents (Elt F))
    (h : r ≠ y) : Function.update V (no_index (Proc.devRef .tc y)) v (no_index (Proc.devRef .tc r)) = V (Proc.devRef .tc r) :=
  Function.update_of_ne (devRef_ne_of_ne h) ..

/-- Before the first product its left operand's array holds the bf16 rounding of the first argument. -/
theorem V1_main_v0 (m : (ℓ : Loc nD τ sig) → Buf (Elt F) ℓ) (c : Dev nD) :
    Gen.V1 m c main_v0 = truncf .bf16 (m ((c.tc : Thread nD τ).loc main_arg0)) bitsLt_bf16_f32 := by
  dsimp only [Gen.V1, Gen.V0, Gen.hostOps0]
  after_results

/-- Before the first product its right operand's array holds the bf16 rounding of the third argument. -/
theorem V1_main_v1 (m : (ℓ : Loc nD τ sig) → Buf (Elt F) ℓ) (c : Dev nD) :
    Gen.V1 m c main_v1 = truncf .bf16 (m ((c.tc : Thread nD τ).loc main_arg2)) bitsLt_bf16_f32 := by
  dsimp only [Gen.V1, Gen.V0, Gen.hostOps0]
  after_results

set_option maxRecDepth 8192 in
set_option maxHeartbeats 8000000 in
/-- Before the second product its operands' array holds the bf16 rounding of the hidden layer of what the first product
    left, the edge list and the bias: each host operation's result read off in turn, the first product's array read
    where the first region left it and every other array where the operations before it did. -/
theorem V7_main_v51 (m : (ℓ : Loc nD τ sig) → Buf (Elt F) ℓ) (outs : Gen.Outs (F := F)) (c : Dev nD) :
    Gen.V7 m outs c main_v51
      = truncf .bf16 (hid (outs 2 main_v2 c) (m ((c.tc : Thread nD τ).loc main_arg1)) (m ((c.tc : Thread nD τ).loc main_arg3)))
          bitsLt_bf16_f32 := by
  dsimp only [Gen.V7, Gen.V6, Gen.V5, Gen.V4, Gen.V3, Gen.V2, Gen.V1, Gen.V0]
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', update_devRef_self, update_devRef_ne]
  unfold hid
  rfl

end Cert.KernelIdeal.Mid

end
-- ==== Proof.LibContract.lean ====
/-
  A matrix product's contraction as a plain sum.

  A product of an [n0, K] matrix with a [K, n1] matrix whose dimension numbers contract the left operand's
  second axis with the right operand's first sums, at the result index (r, c), over the positions of a
  one-axis contraction shape. Re-indexed by that axis' coordinate it is the textbook sum
  ∑ k < K, l (r, k) · r (k, c). The statement is for any dimension record of those shapes: what the record
  owes is that it has one contracting axis of extent K (left axis 1, right axis 0) and that the two free
  axes read the result's coordinates.
-/
import Idealize.ShloMosaic.Lib.ValueIdx

noncomputable section

open scoped BigOperators

namespace Idealize.ShloMosaic.Contract2

open Idealize.ShloMosaic Idealize.ShloMosaic.ValueIdx

/-- The contraction sum of a matrix product at a result index is the sum over the shared coordinate. -/
theorem sum_contr_eq_sum_fin {n0 n1 K : ℕ} {M : Type*} [AddCommMonoid M] [Mul M]
    (D : DotDims (⟨2, ![n0, K]⟩ : Shape) (⟨2, ![K, n1]⟩ : Shape) (⟨2, ![n0, n1]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (l : (⟨2, ![n0, K]⟩ : Shape).Idx → M) (r : (⟨2, ![K, n1]⟩ : Shape).Idx → M) (j : (⟨2, ![n0, n1]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 k (j 1) := funext fun a => Fin.ext (by
    match a with
    | ⟨0, _⟩ => exact h2.trans hk
    | ⟨1, _⟩ => exact hr1 _ _)
  exact congrArg₂ (· * ·) (congrArg l el) (congrArg r er)

end Idealize.ShloMosaic.Contract2

end
-- ==== Proof.LibKeepdims.lean ====
/-
  A vector spread over a matrix, read at an entry.

  `broadcast_in_dim` places a vector along one axis of a matrix in two steps: first under a unit axis, then across
  that axis. A vector `v : [a]` sent to `[a, 1]` and then to `[a, b]` is constant along each row: entry `(i, j)` is
  `v i`. A vector `v : [b]` sent to `[1, b]` and then to `[a, b]` is constant along each column: entry `(i, j)` is
  `v j`. A scalar constant sent to any shape reads the constant everywhere.
-/
import Idealize.ShloMosaic.Lib.ValueIdx
import Idealize.ShloMosaic.Lib.Pipeline.Value

noncomputable section

namespace Idealize.ShloMosaic.Keepdims

open Idealize.ShloMosaic Idealize.ShloMosaic.ValueIdx

variable {α : Type}

/-- A vector of row values spread across the columns: entry `(i, j)` is the row's value. -/
theorem rows_apply {a b : Nat} (h1 : (⟨1, ![a]⟩ : Shape).BroadcastsInDim ⟨2, ![a, 1]⟩ ![0])
    (h2 : (⟨2, ![a, 1]⟩ : Shape).BroadcastsInDim ⟨2, ![a, b]⟩ ![0, 1]) (v : (⟨1, ![a]⟩ : Shape).Idx → α)
    (i : Fin a) (j : Fin b) :
    broadcastInDim (⟨2, ![a, b]⟩ : Shape) ![0, 1] h2 (broadcastInDim (⟨2, ![a, 1]⟩ : Shape) ![0] h1 v) (ix2 i j) = v (ix1 i) := by
  refine (broadcastInDim_apply _ h2 _ (ix2 i j) (ix2 i (0 : Fin 1)) (fun x => ?_)).trans
    (broadcastInDim_apply _ h1 v (ix2 i (0 : Fin 1)) (ix1 i) (fun x => ?_))
  · match x with
    | ⟨0, _⟩ =>
      show i.val = if a = 1 then 0 else i.val
      split_ifs with h
      · have := i.isLt; omega
      · rfl
    | ⟨1, _⟩ =>
      show 0 = if (1 : Nat) = 1 then 0 else j.val
      rw [if_pos rfl]
  · match x with
    | ⟨0, _⟩ =>
      show i.val = if a = 1 then 0 else i.val
      split_ifs with h
      · have := i.isLt; omega
      · rfl

/-- A vector of column values spread down the rows: entry `(i, j)` is the column's value. -/
theorem cols_apply {a b : Nat} (h1 : (⟨1, ![b]⟩ : Shape).BroadcastsInDim ⟨2, ![1, b]⟩ ![1])
    (h2 : (⟨2, ![1, b]⟩ : Shape).BroadcastsInDim ⟨2, ![a, b]⟩ ![0, 1]) (v : (⟨1, ![b]⟩ : Shape).Idx → α)
    (i : Fin a) (j : Fin b) :
    broadcastInDim (⟨2, ![a, b]⟩ : Shape) ![0, 1] h2 (broadcastInDim (⟨2, ![1, b]⟩ : Shape) ![1] h1 v) (ix2 i j) = v (ix1 j) := by
  refine (broadcastInDim_apply _ h2 _ (ix2 i j) (ix2 (0 : Fin 1) j) (fun x => ?_)).trans
    (broadcastInDim_apply _ h1 v (ix2 (0 : Fin 1) j) (ix1 j) (fun x => ?_))
  · match x with
    | ⟨0, _⟩ =>
      show 0 = if (1 : Nat) = 1 then 0 else i.val
      rw [if_pos rfl]
    | ⟨1, _⟩ =>
      show j.val = if b = 1 then 0 else j.val
      split_ifs with h
      · have := j.isLt; omega
      · rfl
  · match x with
    | ⟨0, _⟩ =>
      show j.val = if b = 1 then 0 else j.val
      split_ifs with h
      · have := j.isLt; omega
      · rfl

/-- A vector stood up as a one-column matrix: entry `(i, 0)` is the vector's entry `i`. -/
theorem column_apply {a : Nat} (h1 : (⟨1, ![a]⟩ : Shape).BroadcastsInDim ⟨2, ![a, 1]⟩ ![0])
    (v : (⟨1, ![a]⟩ : Shape).Idx → α) (i : Fin a) :
    broadcastInDim (⟨2, ![a, 1]⟩ : Shape) ![0] h1 v (ix2 i (0 : Fin 1)) = v (ix1 i) := by
  refine broadcastInDim_apply _ h1 v (ix2 i (0 : Fin 1)) (ix1 i) (fun x => ?_)
  match x with
  | ⟨0, _⟩ =>
    show i.val = if a = 1 then 0 else i.val
    split_ifs with h
    · have := i.isLt; omega
    · rfl

end Idealize.ShloMosaic.Keepdims

end
-- ==== Proof.LibDenseVec.lean ====
/-
  Matrix products and scalar splats read at an entry, on the extended reals.

  A vector program multiplies an [n, K] block by a [K, N] matrix into a zero accumulator; the host contracts the same
  axes with `dot_general`. Read at the entry (r, j) both are the textbook sum ∑ k < K, x (r, k) · w (k, j), for any
  extents and any dimension record that contracts the left operand's second axis with the right operand's first.
  The host lays a vector along every row of a matrix in two `broadcast_in_dim` steps (under a unit axis, then across
  it) and sends a scalar constant to every entry of an array by one; both idioms are named here, with what they read
  at an entry. The f32 word 0x3F800000 is the number one.
-/
import Idealize.ShloMosaic.Lib.ValueIdx
import Idealize.ShloMosaic.Lib.Pipeline.Value
import Idealize.ShloMosaic.PureOps.Ideal.Laws
import proofs.«116991_j32590211842241_2_alg».proof.Proof.LibContract
import proofs.«116991_j32590211842241_2_alg».proof.Proof.LibKeepdims

noncomputable section

open scoped BigOperators

namespace Idealize.ShloMosaic.DenseVec

open Idealize.ShloMosaic Idealize.ShloMosaic.ValueIdx

variable {n K N : ℕ}

/-- What a dimension record of an [n, K] · [K, N] product owes for its contraction to be the plain sum over the shared
    axis: one contracting axis of extent K, left axis 1 against right axis 0, and the free axes reading the result's
    coordinates. -/
structure Plain (D : DotDims (⟨2, ![n, K]⟩ : Shape) (⟨2, ![K, N]⟩ : Shape) (⟨2, ![n, N]⟩ : Shape)) : Prop where
  rank : D.contr.rank = 1
  size : ∀ h : 0 < D.contr.rank, D.contr.size ⟨0, h⟩ = K
  lhs : D.lhsContracting = [1]
  rhs : D.rhsContracting = [0]
  row : ∀ j q, (D.lhsIdx j q 0).val = (j 0).val
  col : ∀ j q, (D.rhsIdx j q 1).val = (j 1).val

/-- A vector program's product into the zero accumulator, at (r, j): ∑ k, x (r, k) · w (k, j). -/
theorem matmul_zero_ix2 {D : DotDims (⟨2, ![n, K]⟩ : Shape) (⟨2, ![K, N]⟩ : Shape) (⟨2, ![n, N]⟩ : Shape)} (hD : Plain D)
    {φ₁ φ₂ : FTy} (prec : Option ContractPrecision) (x : FVec Ideal (⟨2, ![n, K]⟩ : Shape) φ₁)
    (w : FVec Ideal (⟨2, ![K, N]⟩ : Shape) φ₂) (r : Fin n) (j : Fin N) :
    matmul D prec x w (constant (F := Ideal) (⟨2, ![n, N]⟩ : Shape) .f32 0x00000000#32) (ix2 r j)
      = ∑ k : Fin K, x (ix2 r k) * w (ix2 k j) :=
  (Ideal.matmul_constant_zero_apply D prec x w (ix2 r j)).trans
    (Contract2.sum_contr_eq_sum_fin (M := EReal) D hD.rank (hD.size _) hD.lhs hD.rhs hD.row hD.col x w (ix2 r j))

/-- The host's `dot_general` over the same axes, at (r, j): the same sum. -/
theorem dotGeneral_ix2 {D : DotDims (⟨2, ![n, K]⟩ : Shape) (⟨2, ![K, N]⟩ : Shape) (⟨2, ![n, N]⟩ : Shape)} (hD : Plain D)
    {φ₁ φ₂ : FTy} (prec : Option ContractPrecision) (x : FVec Ideal (⟨2, ![n, K]⟩ : Shape) φ₁)
    (w : FVec Ideal (⟨2, ![K, N]⟩ : Shape) φ₂) (r : Fin n) (j : Fin N) :
    Host.dotGeneral D prec x w (ix2 r j) = ∑ k : Fin K, x (ix2 r k) * w (ix2 k j) :=
  (Ideal.dotGeneral_apply D prec _ x w (ix2 r j)).trans
    (Contract2.sum_contr_eq_sum_fin (M := EReal) D hD.rank (hD.size _) hD.lhs hD.rhs hD.row hD.col x w (ix2 r j))

/-- A vector laid along every row of an [n, N] matrix in the host's spelling: sent under a unit axis, then across it. -/
def spreadCols {α : Type} (h1 : (⟨1, ![N]⟩ : Shape).BroadcastsInDim ⟨2, ![1, N]⟩ ![1])
    (h2 : (⟨2, ![1, N]⟩ : Shape).BroadcastsInDim ⟨2, ![n, N]⟩ ![0, 1]) (b : (⟨1, ![N]⟩ : Shape).Idx → α) :
    (⟨2, ![n, N]⟩ : Shape).Idx → α :=
  broadcastInDim (⟨2, ![n, N]⟩ : Shape) ![0, 1] h2 (broadcastInDim (⟨2, ![1, N]⟩ : Shape) ![1] h1 b)

/-- At (r, j) it reads the vector's entry j. -/
theorem spreadCols_apply {α : Type} (h1 : (⟨1, ![N]⟩ : Shape).BroadcastsInDim ⟨2, ![1, N]⟩ ![1])
    (h2 : (⟨2, ![1, N]⟩ : Shape).BroadcastsInDim ⟨2, ![n, N]⟩ ![0, 1]) (b : (⟨1, ![N]⟩ : Shape).Idx → α)
    (r : Fin n) (j : Fin N) : spreadCols h1 h2 b (ix2 r j) = b (ix1 j) :=
  Keepdims.cols_apply h1 h2 b r j

/-- A scalar constant sent to every entry of an array (a `broadcast_in_dim` along no axis). -/
def splat {F : FTy → Type} [FloatOps F] {s : Shape} {φ : FTy} (h : (⟨0, ![]⟩ : Shape).BroadcastsInDim s ![])
    (b : BitVec φ.bits) : FVec F s φ :=
  broadcastInDim s ![] h (constant (F := F) (⟨0, ![]⟩ : Shape) φ b)

/-- On the extended reals every entry reads the constant's value. -/
theorem splat_apply {s : Shape} {φ : FTy} (h : (⟨0, ![]⟩ : Shape).BroadcastsInDim s ![]) (b : BitVec φ.bits) (i : s.Idx) :
    splat (F := Ideal) h b i = Ideal.ofBits φ b := rfl

/-- The f32 word 0x3F800000 is the number one. -/
theorem ofBits_one_f32 : Ideal.ofBits .f32 0x3F800000#32 = 1 := by
  simp [Ideal.ofBits, Ideal.ieee, -EReal.coe_mul]; norm_num

end Idealize.ShloMosaic.DenseVec

end
-- ==== Proof.LibContractNT.lean ====
/-
  A matrix product against a transposed right operand: the contraction as a plain sum.

  A product of an [n0, K] matrix with an [n1, K] matrix whose dimension numbers contract the second axis of
  BOTH operands sums, at the result index (r, c), over the positions of a one-axis contraction shape.
  Re-indexed by that axis' coordinate it is ∑ k < K, l (r, k) · r (c, k): the (r, c) entry of l · rᵀ. The
  statement is for any dimension record of those shapes: what the record owes is that it has one contracting
  axis of extent K (axis 1 of the left operand, axis 1 of the right) and that the two free axes (axis 0 of
  each operand) read the result's coordinates. A vector program's product into the zero accumulator and the
  host's `dot_general` over such a record are both that sum on the extended reals.
-/
import Idealize.ShloMosaic.Lib.ValueIdx
import Idealize.ShloMosaic.PureOps.Ideal.Laws

noncomputable section

open scoped BigOperators

namespace Idealize.ShloMosaic.ContractNT

open Idealize.ShloMosaic Idealize.ShloMosaic.ValueIdx

/-- The contraction sum of a product l · rᵀ at a result index is the sum over the shared (second) coordinate. -/
theorem sum_contr_eq_sum_fin {n0 n1 K : ℕ} {M : Type*} [AddCommMonoid M] [Mul M]
    (D : DotDims (⟨2, ![n0, K]⟩ : Shape) (⟨2, ![n1, K]⟩ : Shape) (⟨2, ![n0, n1]⟩ : Shape))
    (hr : D.contr.rank = 1) (hs : D.contr.size ⟨0, by omega⟩ = K)
    (hlc : D.lhsContracting = [1]) (hrc : D.rhsContracting = [1])
    (hl0 : ∀ j q, (D.lhsIdx j q 0).val = (j 0).val) (hr0 : ∀ j q, (D.rhsIdx j q 0).val = (j 1).val)
    (l : (⟨2, ![n0, K]⟩ : Shape).Idx → M) (r : (⟨2, ![n1, K]⟩ : Shape).Idx → M) (j : (⟨2, ![n0, n1]⟩ : Shape).Idx) :
    ∑ q : D.contr.Idx, l (D.lhsIdx j q) * r (D.rhsIdx j q) = ∑ k : Fin K, l (ix2 (j 0) k) * r (ix2 (j 1) k) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 (j 1) k := funext fun a => Fin.ext (by
    match a with
    | ⟨0, _⟩ => exact hr0 _ _
    | ⟨1, _⟩ => exact h2.trans hk)
  exact congrArg₂ (· * ·) (congrArg l el) (congrArg r er)

variable {n0 n1 K : ℕ}

/-- What a dimension record of an [n0, K] · [n1, K] product owes for its contraction to be the plain sum over the
    shared axis: one contracting axis of extent K, axis 1 of the left operand against axis 1 of the right, and the
    free axes (axis 0 of each) reading the result's coordinates. -/
structure Plain (D : DotDims (⟨2, ![n0, K]⟩ : Shape) (⟨2, ![n1, K]⟩ : Shape) (⟨2, ![n0, n1]⟩ : Shape)) : Prop where
  rank : D.contr.rank = 1
  size : ∀ h : 0 < D.contr.rank, D.contr.size ⟨0, h⟩ = K
  lhs : D.lhsContracting = [1]
  rhs : D.rhsContracting = [1]
  row : ∀ j q, (D.lhsIdx j q 0).val = (j 0).val
  col : ∀ j q, (D.rhsIdx j q 0).val = (j 1).val

/-- A vector program's product into the zero accumulator, at (r, c): ∑ k, x (r, k) · w (c, k). -/
theorem matmul_zero_ix2 {D : DotDims (⟨2, ![n0, K]⟩ : Shape) (⟨2, ![n1, K]⟩ : Shape) (⟨2, ![n0, n1]⟩ : Shape)} (hD : Plain D)
    {φ₁ φ₂ : FTy} (prec : Option ContractPrecision) (x : FVec Ideal (⟨2, ![n0, K]⟩ : Shape) φ₁)
    (w : FVec Ideal (⟨2, ![n1, K]⟩ : Shape) φ₂) (r : Fin n0) (c : Fin n1) :
    matmul D prec x w (constant (F := Ideal) (⟨2, ![n0, n1]⟩ : Shape) .f32 0x00000000#32) (ix2 r c)
      = ∑ k : Fin K, x (ix2 r k) * w (ix2 c k) :=
  (Ideal.matmul_constant_zero_apply D prec x w (ix2 r c)).trans
    (sum_contr_eq_sum_fin (M := EReal) D hD.rank (hD.size _) hD.lhs hD.rhs hD.row hD.col x w (ix2 r c))

/-- The host's `dot_general` over the same axes, at (r, c): the same sum. -/
theorem dotGeneral_ix2 {D : DotDims (⟨2, ![n0, K]⟩ : Shape) (⟨2, ![n1, K]⟩ : Shape) (⟨2, ![n0, n1]⟩ : Shape)} (hD : Plain D)
    {φ₁ φ₂ : FTy} (prec : Option ContractPrecision) (x : FVec Ideal (⟨2, ![n0, K]⟩ : Shape) φ₁)
    (w : FVec Ideal (⟨2, ![n1, K]⟩ : Shape) φ₂) (r : Fin n0) (c : Fin n1) :
    Host.dotGeneral D prec x w (ix2 r c) = ∑ k : Fin K, x (ix2 r k) * w (ix2 c k) :=
  (Ideal.dotGeneral_apply D prec _ x w (ix2 r c)).trans
    (sum_contr_eq_sum_fin (M := EReal) D hD.rank (hD.size _) hD.lhs hD.rhs hD.row hD.col x w (ix2 r c))

end Idealize.ShloMosaic.ContractNT

end
-- ==== Proof.ValDense.lean ====
/-
  The program's and the reference's matrix products, read at an entry, on the extended reals.

  The program multiplies a [2048, 128] block of x by the [128, 128] matrix W into a zero accumulator, and later a
  [2048, 128] block of h by a [1024, 128] block of h contracting the second axis of both (a block of h · hᵀ). The
  reference contracts x with W by `dot_general`, and h with its transpose. Read at an entry each of the four is the
  textbook sum over the shared axis of extent 128:
    (x · W) (p, q) = ∑ k, x (p, k) · W (k, q),      (a · bᵀ) (p, q) = ∑ k, a (p, k) · b (q, k).
  Each dimension record has one contracting axis of extent 128 and free axes that read the result's coordinates (the
  four `plain_*` facts, every field by computation); the shape casts of an operand to its own shape are the identity.
-/
import proofs.«116991_j32590211842241_2_alg».proof.Proof.Gen.KernelIdeal.Skeleton
import proofs.«116991_j32590211842241_2_alg».proof.ReferenceIdeal
import proofs.«116991_j32590211842241_2_alg».proof.Proof.LibDenseVec
import proofs.«116991_j32590211842241_2_alg».proof.Proof.LibContractNT
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Dense

open Idealize.ShloMosaic Idealize.ShloMosaic.ValueIdx

/-! ## The program's two products -/

section Kernel
variable [Cert.KernelIdeal.Facts]

/-- The first product's record contracts axis 1 of a [2048, 128] block with axis 0 of a [128, 128] matrix. -/
theorem plain_k0 :
    DenseVec.Plain (n := 2048) (K := 128) (N := 128) Cert.KernelIdeal.dot_S2048x128_S128x128_S2048x128_1_0_0_1_n_n where
  rank := rfl
  size := fun _ => rfl
  lhs := rfl
  rhs := rfl
  row := fun _ _ => rfl
  col := fun _ _ => rfl

/-- The second product's record contracts axis 1 of a [2048, 128] block with axis 1 of a [1024, 128] block. -/
theorem plain_k1 :
    ContractNT.Plain (n0 := 2048) (n1 := 1024) (K := 128) Cert.KernelIdeal.dot_S2048x128_S1024x128_S2048x1024_1_1_0_0_n_n where
  rank := rfl
  size := fun _ => rfl
  lhs := rfl
  rhs := rfl
  row := fun _ _ => rfl
  col := fun _ _ => rfl

/-- The first product at (p, q): ∑ k, x (p, k) · w (k, q). -/
theorem k0_pay1_ix2 (x : Vec Ideal Cert.KernelIdeal.S2048x128 .bf16) (w : Vec Ideal Cert.KernelIdeal.S128x128 .bf16)
    (p : Fin 2048) (q : Fin 128) :
    Cert.KernelIdeal.Gen.k0_pay1 (F := Ideal) x w (ix2 p q) = ∑ k : Fin 128, x (ix2 p k) * w (ix2 k q) := by
  unfold Cert.KernelIdeal.Gen.k0_pay1
  simp only [shapeCast_self]
  exact DenseVec.matmul_zero_ix2 plain_k0 none x w p q

/-- The second product at (p, q): ∑ k, a (p, k) · b (q, k), an entry of a · bᵀ. -/
theorem k1_pay1_ix2 (a : Vec Ideal Cert.KernelIdeal.S2048x128 .bf16) (b : Vec Ideal Cert.KernelIdeal.S1024x128 .bf16)
    (p : Fin 2048) (q : Fin 1024) :
    Cert.KernelIdeal.Gen.k1_pay1 (F := Ideal) a b (ix2 p q) = ∑ k : Fin 128, a (ix2 p k) * b (ix2 q k) := by
  unfold Cert.KernelIdeal.Gen.k1_pay1
  simp only [shapeCast_self]
  exact ContractNT.matmul_zero_ix2 plain_k1 none a b p q

end Kernel

/-! ## The reference's two products -/

section Reference
variable [Cert.ReferenceIdeal.Facts]

/-- The first `dot_general`'s record contracts axis 1 of the [16384, 128] array with axis 0 of the [128, 128] matrix. -/
theorem plain_r0 :
    DenseVec.Plain (n := 16384) (K := 128) (N := 128) Cert.ReferenceIdeal.dot_S16384x128_S128x128_S16384x128_1_0_0_1_n_n where
  rank := rfl
  size := fun _ => rfl
  lhs := rfl
  rhs := rfl
  row := fun _ _ => rfl
  col := fun _ _ => rfl

/-- The second `dot_general`'s record contracts axis 1 of the [16384, 128] array with axis 0 of its [128, 16384]
    transpose. -/
theorem plain_r1 :
    DenseVec.Plain (n := 16384) (K := 128) (N := 16384)
      Cert.ReferenceIdeal.dot_S16384x128_S128x16384_S16384x16384_1_0_0_1_n_n where
  rank := rfl
  size := fun _ => rfl
  lhs := rfl
  rhs := rfl
  row := fun _ _ => rfl
  col := fun _ _ => rfl

/-- The reference's x · W at (r, j): ∑ k, x (r, k) · W (k, j). -/
theorem ref_dot0_ix2 (x : FVec Ideal Cert.ReferenceIdeal.S16384x128 .f32) (W : FVec Ideal Cert.ReferenceIdeal.S128x128 .f32)
    (r : Fin 16384) (j : Fin 128) :
    Host.dotGeneral (F := Ideal) Cert.ReferenceIdeal.dot_S16384x128_S128x128_S16384x128_1_0_0_1_n_n none x W (ix2 r j)
      = ∑ k : Fin 128, x (ix2 r k) * W (ix2 k j) :=
  DenseVec.dotGeneral_ix2 plain_r0 none x W r j

/-- The reference's H · Hᵀ at (i, j): ∑ k, H (i, k) · H (j, k) — the transpose read at (k, j) is H at (j, k). -/
theorem ref_dot1_ix2 (H : FVec Ideal Cert.ReferenceIdeal.S16384x128 .f32) (i j : Fin 16384) :
    Host.dotGeneral (F := Ideal) Cert.ReferenceIdeal.dot_S16384x128_S128x16384_S16384x16384_1_0_0_1_n_n none H
        (transpose Cert.ReferenceIdeal.S128x16384 [1, 0] H Cert.ReferenceIdeal.Facts₀.transposes_S16384x128_S128x16384_1_0)
        (ix2 i j)
      = ∑ k : Fin 128, H (ix2 i k) * H (ix2 j k) := by
  refine (DenseVec.dotGeneral_ix2 plain_r1 none H _ i j).trans ?_
  refine Finset.sum_congr rfl fun k _ => ?_
  exact congrArg (H (ix2 i k) * ·)
    (transpose_ix2_apply H Cert.ReferenceIdeal.Facts₀.transposes_S16384x128_S128x16384_1_0 k j)

end Reference

end Cert.Dense

end
-- ==== Proof.Algebraic.lean ====
/-
  The two idealized programs compute one function of the arguments.

  On the extended reals the kernel program's result array is  gram (h (rowsTimes x W))  and so is the reference's, where
  rowsTimes x W is the product of the node features with the weight matrix, h is the chain of host operations both
  programs apply to it (degrees by a scatter-add of ones over the edge targets, their inverse square roots, the
  normalised gather, the scatter-add of the messages, the bias, the maximum with zero) and gram H is the product of H
  with its own transpose. The kernel program forms rowsTimes by eight row blocks and gram by 8 × 16 tiles, rounding
  its matrix operands to a narrower float format on the way in, which on the extended reals changes nothing; the
  reference forms both by one contraction each, the second against an explicit transpose. The chain h is never opened:
  it is applied to equal arrays on both sides. No law of arithmetic beyond the definitions is used, so the
  precondition (finite inputs) is never opened either.
-/
import proofs.«116991_j32590211842241_2_alg».proof.Defs
import proofs.«116991_j32590211842241_2_alg».proof.Proof.KiMain
import proofs.«116991_j32590211842241_2_alg».proof.Proof.KiBlocks
import proofs.«116991_j32590211842241_2_alg».proof.Proof.MidChain
import proofs.«116991_j32590211842241_2_alg».proof.Proof.ValDense
import proofs.«116991_j32590211842241_2_alg».proof.Proof.RefRun
import proofs.«116991_j32590211842241_2_alg».proof.Proof.Spec
import proofs.«116991_j32590211842241_2_alg».proof.Proof.Gen.Pre_finite_inputs

set_option maxRecDepth 16384

noncomputable section

namespace Cert.Proof.Alg

open Idealize.ShloMosaic Idealize.ShloMosaic.TcCoe Idealize.SL.Sem Idealize.ShloMosaic.ValueIdx

/-- Rounding to a narrower float format is the identity on the extended reals. -/
theorem truncf_id {s : Shape} (a : FVec Ideal s .f32) (h : FTy.bits .bf16 < FTy.bits .f32) :
    (truncf .bf16 a h : FVec Ideal s .bf16) = a := funext fun i => truncf_apply a h i

/-! ## The reference's frame -/

theorem frame_ri : Cert.frame_ReferenceIdeal := fun m ρ _ =>
  (θ_run Cert.ReferenceIdeal.defs _ _).mono (fun _ h c => (h c).2) (Cert.ReferenceIdeal.ValueP.run (F := Ideal) m ρ)

/-! ## The kernel program's result array -/

section Kernel

open Cert.KernelIdeal Cert.KernelIdeal.Gen Cert.KernelIdeal.Hand

variable (m : (ℓ : Loc nD τ sig) → Buf (Elt Ideal) ℓ)

/-- What the first region leaves: the product of the (rounded, that is unchanged) features with the (rounded) weights. -/
theorem o2_eq (c : Dev nD) :
    o2 m c = Cert.Spec.rowsTimes (m ((c.tc : Thread nD τ).loc main_arg0)) (m ((c.tc : Thread nD τ).loc main_arg2)) := by
  unfold o2
  rw [final0 (VR1 m) Cert.Dense.k0_pay1_ix2 c]
  show Cert.Spec.rowsTimes (Gen.V1 m c main_v0) (Gen.V1 m c main_v1) = _
  rw [Cert.KernelIdeal.Mid.V1_main_v0, Cert.KernelIdeal.Mid.V1_main_v1, truncf_id, truncf_id]

/-- What the second region leaves: the product of the hidden array with its own transpose. -/
theorem o8_eq (c : Dev nD) :
    o8 m c = Cert.Spec.gram (Cert.KernelIdeal.Mid.hid (F := Ideal)
      (Cert.Spec.rowsTimes (m ((c.tc : Thread nD τ).loc main_arg0)) (m ((c.tc : Thread nD τ).loc main_arg2)))
      (m ((c.tc : Thread nD τ).loc main_arg1)) (m ((c.tc : Thread nD τ).loc main_arg3))) := by
  unfold o8
  rw [final1 (VR7 m) Cert.Dense.k1_pay1_ix2 c]
  show Cert.Spec.gram (Gen.V7 m (outs1 m) c main_v51) = _
  rw [Cert.KernelIdeal.Mid.V7_main_v51, outs1_2, o2_eq, truncf_id]

end Kernel

/-! ## The reference's result array -/

section Reference

open Cert.ReferenceIdeal Cert.ReferenceIdeal.Gen

/-- The reference's first contraction is the product of the features with the weights. -/
theorem ref_lin (x : FVec Ideal Cert.ReferenceIdeal.S16384x128 .f32) (W : FVec Ideal Cert.ReferenceIdeal.S128x128 .f32) :
    Host.dotGeneral (F := Ideal) Cert.ReferenceIdeal.dot_S16384x128_S128x128_S16384x128_1_0_0_1_n_n none x W = Cert.Spec.rowsTimes x W := by
  funext i
  obtain ⟨r, j, rfl⟩ : ∃ (r : Fin 16384) (j : Fin 128), i = ix2 r j := ⟨i 0, i 1, eq_ix2 i⟩
  exact (Cert.Dense.ref_dot0_ix2 x W r j).trans (Cert.Spec.rowsTimes_ix2 x W r j).symm

/-- The reference's second contraction, against the transpose, is the product of the array with its own transpose. -/
theorem ref_gram (H : FVec Ideal Cert.ReferenceIdeal.S16384x128 .f32) :
    Host.dotGeneral (F := Ideal) Cert.ReferenceIdeal.dot_S16384x128_S128x16384_S16384x16384_1_0_0_1_n_n none H
      (transpose Cert.ReferenceIdeal.S128x16384 [1, 0] H Cert.ReferenceIdeal.Gen.transposes_S16384x128_S128x16384_1_0) = Cert.Spec.gram H := by
  funext i
  obtain ⟨p, q, rfl⟩ : ∃ (p : Fin 16384) (q : Fin 16384), i = ix2 p q := ⟨i 0, i 1, eq_ix2 i⟩
  exact (Cert.Dense.ref_dot1_ix2 H p q).trans (Cert.Spec.gram_ix2 H p q).symm

/-- The reference's result term is gram of the hidden array of the product of its first and third arguments. -/
theorem ref_result (m : (ℓ : Loc nD τ sig) → Buf (Elt Ideal) ℓ) (c : Dev nD) :
    Cert.ReferenceIdeal.ValueP.res_main_v50 (F := Ideal) m c
      = Cert.Spec.gram (Cert.KernelIdeal.Mid.hid (F := Ideal)
          (Cert.Spec.rowsTimes (m ((c.tc : Thread nD τ).loc main_arg0)) (m ((c.tc : Thread nD τ).loc main_arg2)))
          (m ((c.tc : Thread nD τ).loc main_arg1)) (m ((c.tc : Thread nD τ).loc main_arg3))) := by
  rw [Cert.ReferenceIdeal.Mid.ref_res, ref_lin, ref_gram, ← Cert.KernelIdeal.Mid.hid_eq]

end Reference

/-! ## The claim -/

/-- Both idealized programs run, from memories agreeing on the arguments, to equal result arrays. -/
theorem algebraic : Cert.algebraic_KernelIdeal_ReferenceIdeal := by
  intro m ρ m' ρ' _ hagree
  refine ⟨fun c => Cert.Spec.gram (Cert.KernelIdeal.Mid.hid (F := Ideal)
      (Cert.Spec.rowsTimes (m ((c.tc : Thread Cert.KernelIdeal.nD Cert.KernelIdeal.τ).loc Cert.KernelIdeal.main_arg0))
        (m ((c.tc : Thread Cert.KernelIdeal.nD Cert.KernelIdeal.τ).loc Cert.KernelIdeal.main_arg2)))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3))), ?_, ?_⟩
  · refine (θ_run Cert.KernelIdeal.defs _ _).mono (fun r h c => ⟨?_, ?_, ?_, ?_, ?_⟩) (Cert.KernelIdeal.Hand.run_all m ρ)
    · exact (h c _ (Cert.KernelIdeal.Hand.mem_uc Cert.KernelIdeal.main_v52 (by decide))).trans
        ((Cert.KernelIdeal.Hand.result_eq m c).trans (o8_eq m c))
    · exact (h c _ (Cert.KernelIdeal.Hand.mem_uc Cert.KernelIdeal.main_arg0 (by decide))).trans (Cert.KernelIdeal.Gen.V8_main_arg0 m _ c)
    · exact (h c _ (Cert.KernelIdeal.Hand.mem_uc Cert.KernelIdeal.main_arg1 (by decide))).trans (Cert.KernelIdeal.Gen.V8_main_arg1 m _ c)
    · exact (h c _ (Cert.KernelIdeal.Hand.mem_uc Cert.KernelIdeal.main_arg2 (by decide))).trans (Cert.KernelIdeal.Gen.V8_main_arg2 m _ c)
    · exact (h c _ (Cert.KernelIdeal.Hand.mem_uc Cert.KernelIdeal.main_arg3 (by decide))).trans (Cert.KernelIdeal.Gen.V8_main_arg3 m _ c)
  · refine (θ_run Cert.ReferenceIdeal.defs _ _).mono (fun r h c => ⟨(h c).1.trans ?_, (h c).2⟩)
      (Cert.ReferenceIdeal.ValueP.run (F := Ideal) m' ρ')
    rw [ref_result, (hagree c).1, (hagree c).2.1, (hagree c).2.2.1, (hagree c).2.2.2]

end Cert.Proof.Alg

end
-- ==== Proof.lean ====
/-
  The certificate of the kernel program against its reference: a graph-convolution layer followed by the product of
  the hidden array with its own transpose.

  The program has two pipelined kernel regions — the product of the features with the weights, by eight row blocks, and
  the product of the hidden array with its transpose, by 8 × 16 tiles, both of whose input windows read the one hidden
  array — among stretches of host operations (the degree normalisation, the gathers and the scatter-adds over the
  edges, the bias and the maximum with zero). The three frames: the program as printed and its idealization run to the
  end with their arguments unchanged (the run of the two regions among the host stretches, `Hand.frame`, once at each
  instance); the reference is host operations only. The idealization rewrote nothing, so it preserves the program
  trivially. On the extended reals both idealized programs end with the array  gram (hid (rowsTimes x W))  (`Alg.algebraic`).
-/
import proofs.«116991_j32590211842241_2_alg».proof.Defs
import proofs.«116991_j32590211842241_2_alg».proof.Proof.Gen.Kernel
import proofs.«116991_j32590211842241_2_alg».proof.Proof.Gen.Kernel.Skeleton
import proofs.«116991_j32590211842241_2_alg».proof.Proof.Gen.Kernel.Launch
import proofs.«116991_j32590211842241_2_alg».proof.Proof.Gen.Kernel.Regions
import proofs.«116991_j32590211842241_2_alg».proof.Proof.Gen.Kernel.Points
import proofs.«116991_j32590211842241_2_alg».proof.Proof.Gen.KernelIdeal
import proofs.«116991_j32590211842241_2_alg».proof.Proof.Gen.KernelIdeal.Skeleton
import proofs.«116991_j32590211842241_2_alg».proof.Proof.Gen.KernelIdeal.Launch
import proofs.«116991_j32590211842241_2_alg».proof.Proof.Gen.KernelIdeal.Regions
import proofs.«116991_j32590211842241_2_alg».proof.Proof.Gen.KernelIdeal.Points
import proofs.«116991_j32590211842241_2_alg».proof.Proof.Gen.ReferenceIdeal
import proofs.«116991_j32590211842241_2_alg».proof.Proof.Gen.Pre_finite_inputs
import proofs.«116991_j32590211842241_2_alg».proof.Proof.KiMain
import proofs.«116991_j32590211842241_2_alg».proof.Proof.KiMainB
import proofs.«116991_j32590211842241_2_alg».proof.Proof.Algebraic
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame m ρ,
    fun m ρ _ => Cert.KernelIdeal.Hand.frame m ρ,
    Cert.Proof.Alg.frame_ri,
    trivial,
    Cert.Proof.Alg.algebraic⟩

end Cert.Proof

end
